-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x4x4 : Shape := ⟨3, ![262144, 4, 4]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144x4x4 : S_.BroadcastsInDim S262144x4x4 (![] : Fin 0 → Fin S262144x4x4.rank)
  reducesTo_S262144x4x4_S_d0_1_2 : S262144x4x4.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S262144x4x4 1) : IVec S_ 1 :=
  let main_c_5 : IVec S_ 1 := constantI S_ 1 1#1
  let main_v17 : IVec S_ 1 := (fun x v => Host.reduce IntOp.andi x v reducesTo_S262144x4x4_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x256 .f32) (main_arg1 : FVec F S262144x256 .f32) (main_arg2 : FVec F S262144x256 .f32) (main_arg3 : FVec F S262144x4x4 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S262144x4x4 .f32 := Host.absf main_arg3
  let main_cst_4 : FVec F S_ .f32 := constant S_ .f32 0x7F800000#32
  let main_v15 : FVec F S262144x4x4 .f32 := broadcastInDim S262144x4x4 ![] bcast_S_S262144x4x4 main_cst_4
  let main_v16 : IVec S262144x4x4 1 := cmpf .olt main_v14 main_v15
  fn_part1 (F := F) main_arg4 main_arg5 main_arg6 main_arg7 main_arg8 main_arg9 main_v13 main_v16
-- ==== Kernel.lean ====
abbrev S262144x256 : Shape := ⟨2, ![262144, 256]⟩
abbrev S262144x4x4 : Shape := ⟨3, ![262144, 4, 4]⟩
abbrev S256x256 : Shape := ⟨2, ![256, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S262144x16 : Shape := ⟨2, ![262144, 16]⟩
abbrev S1024x256 : Shape := ⟨2, ![1024, 256]⟩
abbrev S1024x16 : Shape := ⟨2, ![1024, 16]⟩
abbrev S1024x64 : Shape := ⟨2, ![1024, 64]⟩
abbrev S1024x4x64 : Shape := ⟨3, ![1024, 4, 64]⟩
abbrev S1024x4 : Shape := ⟨2, ![1024, 4]⟩
abbrev S1024 : Shape := ⟨1, ![1024]⟩
abbrev S1024x1 : Shape := ⟨2, ![1024, 1]⟩
abbrev S1024x4x1 : Shape := ⟨3, ![1024, 4, 1]⟩
abbrev S1024x1x64 : Shape := ⟨3, ![1024, 1, 64]⟩

abbrev nBuf : Space → Nat
  | .hbm => 68
  | .vmem => 18
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S262144x4x4, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .i32⟩
  | .hbm, ⟨11, _⟩ => ⟨S256, .i1⟩
  | .hbm, ⟨12, _⟩ => ⟨S256, .i1⟩
  | .hbm, ⟨13, _⟩ => ⟨S256, .i1⟩
  | .hbm, ⟨14, _⟩ => ⟨S256, .i1⟩
  | .hbm, ⟨15, _⟩ => ⟨S256, .i1⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x256, .f32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x256, .f32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256x256, .f32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256x1, .i32⟩
  | .hbm, ⟨40, _⟩ => ⟨S256, .f32⟩
  | .hbm, ⟨41, _⟩ => ⟨S1x256, .f32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S256, .f32⟩
  | .hbm, ⟨48, _⟩ => ⟨S1x256, .f32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256, .f32⟩
  | .hbm, ⟨55, _⟩ => ⟨S1x256, .f32⟩
  | .hbm, ⟨56, _⟩ => ⟨S256x256, .f32⟩
  | .hbm, ⟨57, _⟩ => ⟨S256x256, .bf16⟩
  | .hbm, ⟨58, _⟩ => ⟨S256x256, .f32⟩
  | .hbm, ⟨59, _⟩ => ⟨S256x256, .bf16⟩
  | .hbm, ⟨60, _⟩ => ⟨S256x256, .f32⟩
  | .hbm, ⟨61, _⟩ => ⟨S256x256, .bf16⟩
  | .hbm, ⟨62, _⟩ => ⟨S262144x4x4, .f32⟩
  | .hbm, ⟨63, _⟩ => ⟨S262144x16, .f32⟩
  | .hbm, ⟨64, _⟩ => ⟨S262144x256, .f32⟩
  | .hbm, ⟨65, _⟩ => ⟨S262144x16, .f32⟩
  | .hbm, ⟨66, _⟩ => ⟨S262144x4x4, .f32⟩
  | .hbm, ⟨67, _⟩ => ⟨S262144x4x4, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x16, .f32⟩
  | .local _ .vmem, ⟨7, _⟩ => ⟨S1024x16, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x16, .f32⟩
  | .local _ .vmem, ⟨17, _⟩ => ⟨S1024x16, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_c_3 : Ref sig .tc := ⟨.hbm, 14, rfl⟩
abbrev main_c_4 : Ref sig .tc := ⟨.hbm, 15, rfl⟩
abbrev main_c_5 : Ref sig .tc := ⟨.hbm, 16, rfl⟩
abbrev main_c_6 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_7 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_8 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_9 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_10 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_11 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S256_S1x256 : S256.ShapeCasts S1x256
  transposes_S256x256_S256x256_1_0 : S256x256.Transposes [1, 0] S256x256
  bitsLt_bf16_f32 : FTy.bits .bf16 < FTy.bits .f32
  transposes_S262144x4x4_S262144x4x4_0_2_1 : S262144x4x4.Transposes [0, 2, 1] S262144x4x4
  shapeCasts_S262144x4x4_S262144x16 : S262144x4x4.ShapeCasts S262144x16
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  slices_S1024x256_o0_0_S1024x64 : S1024x256.Slices ![0, 0] S1024x64
  concatenates_S1024x64_S1024x64_S1024x64_S1024x64_S1024x256_d1 : Shape.Concatenates [S1024x64, S1024x64, S1024x64, S1024x64] S1024x256 1
  shapeCasts_S1024x256_S1024x4x64 : S1024x256.ShapeCasts S1024x4x64
  reduces_S1024x4x64_S1024x4 : S1024x4x64.Reduces [2] S1024x4
  slices_S1024x16_o0_0_S1024x4 : S1024x16.Slices ![0, 0] S1024x4
  reduces_S1024x4_S1024 : S1024x4.Reduces [1] S1024
  shapeCasts_S1024_S1024x1 : S1024.ShapeCasts S1024x1
  broadcasts_S1024x1_S1024x4 : S1024x1.Broadcasts S1024x4
  shapeCasts_S1024x4_S1024x4x1 : S1024x4.ShapeCasts S1024x4x1
  shapeCasts_S1024x64_S1024x1x64 : S1024x64.ShapeCasts S1024x1x64
  broadcasts_S1024x4x1_S1024x4x64 : S1024x4x1.Broadcasts S1024x4x64
  broadcasts_S1024x1x64_S1024x4x64 : S1024x1x64.Broadcasts S1024x4x64
  shapeCasts_S1024x4x64_S1024x256 : S1024x4x64.ShapeCasts S1024x256
  slices_S1024x256_o0_64_S1024x64 : S1024x256.Slices ![0, 64] S1024x64
  slices_S1024x16_o0_4_S1024x4 : S1024x16.Slices ![0, 4] S1024x4
  slices_S1024x256_o0_128_S1024x64 : S1024x256.Slices ![0, 128] S1024x64
  slices_S1024x16_o0_8_S1024x4 : S1024x16.Slices ![0, 8] S1024x4
  slices_S1024x256_o0_192_S1024x64 : S1024x256.Slices ![0, 192] S1024x64
  slices_S1024x16_o0_12_S1024x4 : S1024x16.Slices ![0, 12] S1024x4
  concatenates_S1024x4_S1024x4_S1024x4_S1024x4_S1024x16_d1 : Shape.Concatenates [S1024x4, S1024x4, S1024x4, S1024x4] S1024x16 1
  shapeCasts_S262144x16_S262144x4x4 : S262144x16.ShapeCasts S262144x4x4
  gather_S256x256_S256x1_S256x256_1_0_n_n_0_1_1256_wf : GatherDims.WF S256x256 S256x1 S256x256 [1] [0] [] [0] [] 1 ![1, 256]
  gather_S256_S256x1_S256_n_0_n_n_0_1_1_wf : GatherDims.WF S256 S256x1 S256 [] [0] [] [0] [] 1 ![1]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S262144x256.size a
  hwx0_1 : ∀ i : grid0.Coords, EltTy.bits .f32 = 32 ∨ (Rect.block (s := S262144x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S262144x256.size a
  hwx0_2 : ∀ i : grid0.Coords, EltTy.bits .f32 = 32 ∨ (Rect.block (s := S262144x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S262144x16.size a
  hwx0_3 : ∀ i : grid0.Coords, EltTy.bits .f32 = 32 ∨ (Rect.block (s := S262144x16) S1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S262144x256.size a
  hwx0_10 : ∀ i : grid0.Coords, EltTy.bits .f32 = 32 ∨ (Rect.block (s := S262144x256) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x16.size a ≤ S262144x16.size a
  hwx0_11 : ∀ i : grid0.Coords, EltTy.bits .f32 = 32 ∨ (Rect.block (s := S262144x16) S1024x16.size (cc0_transform_11 i) (hinb0_11 i)).WholeWords (EltTy.packing .f32)

variable [Facts₀]

def gather_S256x256_S256x1_S256x256_1_0_n_n_0_1_1256 : GatherDims S256x256 S256x1 S256x256 where
  offsetDims := [1]
  collapsedSliceDims := [0]
  operandBatchingDims := []
  startIndicesBatchingDims := []
  startIndexMap := [0]
  indexVectorDim := 1
  sliceSizes := ![1, 256]
  wf := gather_S256x256_S256x1_S256x256_1_0_n_n_0_1_1256_wf
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v41_1) S1024x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144x4x4 : Shape := ⟨3, ![262144, 4, 4]⟩
abbrev S256x256 : Shape := ⟨2, ![256, 256]⟩
abbrev S256 : Shape := ⟨1, ![256]⟩
abbrev S1x256 : Shape := ⟨2, ![1, 256]⟩
abbrev S262144x64x4 : Shape := ⟨3, ![262144, 64, 4]⟩
abbrev S262144x4x64 : Shape := ⟨3, ![262144, 4, 64]⟩
abbrev S_ : Shape := ⟨0, ![]⟩
abbrev S262144x4 : Shape := ⟨2, ![262144, 4]⟩
abbrev S262144x1x4 : Shape := ⟨3, ![262144, 1, 4]⟩

abbrev nBuf : Space → Nat
  | .hbm => 49
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S262144x4x4, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S262144x256, .f32⟩
  | .hbm, ⟨12, _⟩ => ⟨S1x256, .f32⟩
  | .hbm, ⟨13, _⟩ => ⟨S262144x256, .f32⟩
  | .hbm, ⟨14, _⟩ => ⟨S262144x256, .f32⟩
  | .hbm, ⟨15, _⟩ => ⟨S262144x64x4, .f32⟩
  | .hbm, ⟨16, _⟩ => ⟨S262144x4x64, .f32⟩
  | .hbm, ⟨17, _⟩ => ⟨S256x256, .f32⟩
  | .hbm, ⟨18, _⟩ => ⟨S262144x256, .f32⟩
  | .hbm, ⟨19, _⟩ => ⟨S1x256, .f32⟩
  | .hbm, ⟨20, _⟩ => ⟨S262144x256, .f32⟩
  | .hbm, ⟨21, _⟩ => ⟨S262144x256, .f32⟩
  | .hbm, ⟨22, _⟩ => ⟨S262144x64x4, .f32⟩
  | .hbm, ⟨23, _⟩ => ⟨S262144x4x64, .f32⟩
  | .hbm, ⟨24, _⟩ => ⟨S256x256, .f32⟩
  | .hbm, ⟨25, _⟩ => ⟨S262144x256, .f32⟩
  | .hbm, ⟨26, _⟩ => ⟨S1x256, .f32⟩
  | .hbm, ⟨27, _⟩ => ⟨S262144x256, .f32⟩
  | .hbm, ⟨28, _⟩ => ⟨S262144x256, .f32⟩
  | .hbm, ⟨29, _⟩ => ⟨S262144x64x4, .f32⟩
  | .hbm, ⟨30, _⟩ => ⟨S262144x4x64, .f32⟩
  | .hbm, ⟨31, _⟩ => ⟨S262144x4x4, .f32⟩
  | .hbm, ⟨32, _⟩ => ⟨S262144x4x4, .f32⟩
  | .hbm, ⟨33, _⟩ => ⟨S_, .f32⟩
  | .hbm, ⟨34, _⟩ => ⟨S262144x4, .f32⟩
  | .hbm, ⟨35, _⟩ => ⟨S_, .f32⟩
  | .hbm, ⟨36, _⟩ => ⟨S262144x4, .f32⟩
  | .hbm, ⟨37, _⟩ => ⟨S262144x4, .f32⟩
  | .hbm, ⟨38, _⟩ => ⟨S262144x1x4, .f32⟩
  | .hbm, ⟨39, _⟩ => ⟨S262144x4x4, .f32⟩
  | .hbm, ⟨40, _⟩ => ⟨S262144x4x4, .f32⟩
  | .hbm, ⟨41, _⟩ => ⟨S262144x4x4, .f32⟩
  | .hbm, ⟨42, _⟩ => ⟨S_, .f32⟩
  | .hbm, ⟨43, _⟩ => ⟨S262144x4, .f32⟩
  | .hbm, ⟨44, _⟩ => ⟨S262144x1x4, .f32⟩
  | .hbm, ⟨45, _⟩ => ⟨S262144x4x4, .f32⟩
  | .hbm, ⟨46, _⟩ => ⟨S262144x4x4, .f32⟩
  | .hbm, ⟨47, _⟩ => ⟨S262144x4x64, .f32⟩
  | .hbm, ⟨48, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  shapeCasts_S262144x256_S262144x64x4 : S262144x256.ShapeCasts S262144x64x4
  transposes_S262144x64x4_S262144x4x64_0_2_1 : S262144x64x4.Transposes [0, 2, 1] S262144x4x64
  reducesTo_S262144x4x4_S262144x4_d1 : S262144x4x4.ReducesTo [1] S262144x4
  h_S_ : 0 < S_.numel
  bcast_S_S262144x4 : S_.BroadcastsInDim S262144x4 (![] : Fin 0 → Fin S262144x4.rank)
  bcast_S262144x4_S262144x1x4_0_2 : S262144x4.BroadcastsInDim S262144x1x4 (![0, 2] : Fin 2 → Fin S262144x1x4.rank)
  bcast_S262144x1x4_S262144x4x4_0_1_2 : S262144x1x4.BroadcastsInDim S262144x4x4 (![0, 1, 2] : Fin 3 → Fin S262144x4x4.rank)
  shapeCasts_S262144x4x64_S262144x256 : S262144x4x64.ShapeCasts S262144x256
  dot_S262144x256_S256x256_S262144x256_1_0_0_1_n_n_wf : DotDims.WF S262144x256 S256x256 S262144x256 [1] [0] [0] [1] [] []
  dot_S262144x4x64_S262144x4x64_S262144x4x4_2_2_1_1_0_0_wf : DotDims.WF S262144x4x64 S262144x4x64 S262144x4x4 [2] [2] [1] [1] [0] [0]
  dot_S262144x4x4_S262144x4x64_S262144x4x64_2_1_1_2_0_0_wf : DotDims.WF S262144x4x4 S262144x4x64 S262144x4x64 [2] [1] [1] [2] [0] [0]

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x4x64_S262144x4x64_S262144x4x4_2_2_1_1_0_0 : DotDims S262144x4x64 S262144x4x64 S262144x4x4 where
  lhsContracting := [2]
  rhsContracting := [2]
  lhsNonContracting := [1]
  rhsNonContracting := [1]
  lhsBatch := [0]
  rhsBatch := [0]
  wf := dot_S262144x4x64_S262144x4x64_S262144x4x4_2_2_1_1_0_0_wf
def dot_S262144x4x4_S262144x4x64_S262144x4x64_2_1_1_2_0_0 : DotDims S262144x4x4 S262144x4x64 S262144x4x64 where
  lhsContracting := [2]
  rhsContracting := [1]
  lhsNonContracting := [1]
  rhsNonContracting := [2]
  lhsBatch := [0]
  rhsBatch := [0]
  wf := dot_S262144x4x4_S262144x4x64_S262144x4x64_2_1_1_2_0_0_wf

class Facts : Prop extends Facts₀ where

variable [Facts]
-- ==== Proof.Spec.lean ====
/-
  The mathematics both programs compute, stated once, index by index, on the extended reals.

  Each of the 262144 rows carries three 256-vectors q, k, v and a 4 × 4 table of biases. A linear layer
  (weights W, offset b) sends a row x to y with y[j] = Σ_c x[c] · W[j, c] + b[j]. The 256 outputs of a layer are
  read as 4 heads of 64 lanes, INTERLEAVED: lane d of head h is output d · 4 + h (`col`). For heads h (of q) and
  g (of k) the score is  s[h, g] = Σ_d Q[h, d] · K[g, d] + bias[h, g]  (`logit`): the second result. The scores are
  normalised over h at fixed g by the shifted softmax (`wgt`: subtract the column's maximum, exponentiate,
  divide by the column's sum), and the first result mixes the v-heads with those weights:
  out[h · 64 + d] = Σ_g wgt(s[·, g])[h] · V[g, d]  (`mix`).
-/
import Idealize.ShloMosaic.PureOps.Ideal
import Idealize.ShloMosaic.Lib.ValueIdx

noncomputable section

namespace Cert.EdgeAttn

open Idealize.ShloMosaic Idealize.ShloMosaic.ValueIdx

/-- One 256-vector per row. -/
abbrev Rows : Shape := ⟨2, ![262144, 256]⟩
/-- One 4 × 4 table per row. -/
abbrev Pairs : Shape := ⟨3, ![262144, 4, 4]⟩
/-- A layer's weights. -/
abbrev Mat : Shape := ⟨2, ![256, 256]⟩
/-- A layer's offsets. -/
abbrev Row : Shape := ⟨1, ![256]⟩

/-- The arguments: the three row arrays, the bias tables, and the three layers. -/
structure Inputs where
  q : Rows.Idx → EReal
  k : Rows.Idx → EReal
  v : Rows.Idx → EReal
  bias : Pairs.Idx → EReal
  Wq : Mat.Idx → EReal
  bq : Row.Idx → EReal
  Wk : Mat.Idx → EReal
  bk : Row.Idx → EReal
  Wv : Mat.Idx → EReal
  bv : Row.Idx → EReal

/-- Lane `d` of head `h` is output `d · 4 + h` of a layer. -/
def col (h : Fin 4) (d : Fin 64) : Fin 256 := ⟨d.val * 4 + h.val, by omega⟩

/-- Head-major position `j = h · 64 + d` names lane `d` of head `h`: output `(j % 64) · 4 + j / 64` of a layer. -/
def lane (j : Fin 256) : Fin 256 := ⟨j.val % 64 * 4 + j.val / 64, by omega⟩

theorem lane_eq_col (j : Fin 256) : lane j = col ⟨j.val / 64, by omega⟩ ⟨j.val % 64, Nat.mod_lt _ (by decide)⟩ := rfl

/-- Output `j` of the linear layer `(W, b)` on row `r` of `x`. -/
def proj (x : Rows.Idx → EReal) (W : Mat.Idx → EReal) (b : Row.Idx → EReal) (r : Fin 262144) (j : Fin 256) : EReal :=
  (∑ c : Fin 256, x (ix2 r c) * W (ix2 j c)) + b (ix1 j)

/-- The value both programs start a maximum from: the pattern of −∞. -/
def negInf : EReal := Ideal.ofBits .f32 0xFF800000#32

/-- The maximum of a column of four scores, folded from −∞. -/
def colMax (P : Fin 4 → EReal) : EReal := (Finset.univ : Finset (Fin 4)).fold max negInf P

/-- A score shifted by its column's maximum, exponentiated. -/
def expd (P : Fin 4 → EReal) (h : Fin 4) : EReal := Ideal.exp (P h - colMax P)

/-- The softmax weight of entry `h` of a column of four scores. -/
def wgt (P : Fin 4 → EReal) (h : Fin 4) : EReal := Ideal.div (expd P h) (∑ h' : Fin 4, expd P h')

/-- The score of q-head `h` against k-head `g` on row `r`. -/
def logit (A : Inputs) (r : Fin 262144) (h g : Fin 4) : EReal :=
  (∑ d : Fin 64, proj A.q A.Wq A.bq r (col h d) * proj A.k A.Wk A.bk r (col g d)) + A.bias (ix3 r h g)

/-- Lane `d` of output head `h` on row `r`: the v-heads mixed by the weights of the scores' columns. -/
def mix (A : Inputs) (r : Fin 262144) (h : Fin 4) (d : Fin 64) : EReal :=
  ∑ g : Fin 4, wgt (fun h' => logit A r h' g) h * proj A.v A.Wv A.bv r (col g d)

/-- The second result: the scores. -/
def probOut (A : Inputs) : Pairs.Idx → EReal := fun i => logit A (i 0) (i 1) (i 2)

/-- The first result: output head `j / 64`, lane `j % 64` at column `j`. -/
def xOut (A : Inputs) : Rows.Idx → EReal := fun i =>
  mix A (i 0) ⟨(i 1).val / 64, by have := (i 1).isLt; change (i 1).val < 256 at this; omega⟩
    ⟨(i 1).val % 64, Nat.mod_lt _ (by decide)⟩

end Cert.EdgeAttn

end
-- ==== Proof.RefSide.lean ====
/-
  The reference program read index by index: its second result is the table of scores (`logit`), its first the
  v-heads mixed by the softmax weights of the scores' columns (`mix`), at head-major columns.
-/
import proofs.«156817_j62414464745780_2_alg».proof.Proof.Spec
import proofs.«156817_j62414464745780_2_alg».proof.Proof.Gen.ReferenceIdeal.Read

noncomputable section

namespace Cert.EdgeAttn.Ref

open Idealize.ShloMosaic Idealize.ShloMosaic.ValueIdx Cert.EdgeAttn
open Cert.ReferenceIdeal Cert.ReferenceIdeal.Gen Cert.ReferenceIdeal.Read

/-- Output `j` of the q-layer on row `r`, as the reference computes it: the row against row `j` of the weights, plus the offset. -/
theorem layer_q (A : Inputs) (r : Fin 262144) (j : Fin 256) :
    val_main_v4 (F := Ideal) A.q A.Wq A.bq (ix2 r j) = proj A.q A.Wq A.bq r j := by
  rw [val_main_v4_apply, val_main_v1_apply, val_main_v3_apply, val_main_v2_apply]
  have e1 : idx_main_v2 (idx_main_v3 (ix2 r j)) = ix1 j :=
    funext fun a => Fin.ext (by match a with | ⟨0, _⟩ => rfl)
  rw [e1]
  show (∑ k, _) + _ = (∑ c, _) + _
  congr 1
  refine Finset.sum_congr rfl fun k _ => ?_
  rw [val_main_v0_apply]
  have e2 : lidx_main_v1 (ix2 r j) k = ix2 r k :=
    funext fun a => Fin.ext (by match a with | ⟨0, _⟩ => rfl | ⟨1, _⟩ => rfl)
  have e3 : idx_main_v0 (ridx_main_v1 (ix2 r j) k) = ix2 j k :=
    funext fun a => Fin.ext (by match a with | ⟨0, _⟩ => rfl | ⟨1, _⟩ => rfl)
  rw [e2, e3]

/-- Entry `(r, h, d)` of the q-heads is output `d · 4 + h` of the q-layer on row `r`. -/
theorem head_q (A : Inputs) (r : Fin 262144) (h : Fin 4) (d : Fin 64) :
    val_main_v6 (F := Ideal) A.q A.Wq A.bq (ix3 r h d) = proj A.q A.Wq A.bq r (col h d) := by
  rw [val_main_v6_apply, val_main_v5_apply]
  have e : idx_main_v5 (idx_main_v6 (ix3 r h d)) = ix2 r (col h d) := funext fun a => Fin.ext (by
    match a with
    | ⟨0, _⟩ => show ((r.val * 64 + d.val) * 4 + h.val) / 256 = r.val; omega
    | ⟨1, _⟩ => show ((r.val * 64 + d.val) * 4 + h.val) % 256 = d.val * 4 + h.val; omega)
  rw [e, layer_q]

/-- Output `j` of the k-layer on row `r`, as the reference computes it: the row against row `j` of the weights, plus the offset. -/
theorem layer_k (A : Inputs) (r : Fin 262144) (j : Fin 256) :
    val_main_v11 (F := Ideal) A.k A.Wk A.bk (ix2 r j) = proj A.k A.Wk A.bk r j := by
  rw [val_main_v11_apply, val_main_v8_apply, val_main_v10_apply, val_main_v9_apply]
  have e1 : idx_main_v9 (idx_main_v10 (ix2 r j)) = ix1 j :=
    funext fun a => Fin.ext (by match a with | ⟨0, _⟩ => rfl)
  rw [e1]
  show (∑ k, _) + _ = (∑ c, _) + _
  congr 1
  refine Finset.sum_congr rfl fun k _ => ?_
  rw [val_main_v7_apply]
  have e2 : lidx_main_v8 (ix2 r j) k = ix2 r k :=
    funext fun a => Fin.ext (by match a with | ⟨0, _⟩ => rfl | ⟨1, _⟩ => rfl)
  have e3 : idx_main_v7 (ridx_main_v8 (ix2 r j) k) = ix2 j k :=
    funext fun a => Fin.ext (by match a with | ⟨0, _⟩ => rfl | ⟨1, _⟩ => rfl)
  rw [e2, e3]

/-- Entry `(r, h, d)` of the k-heads is output `d · 4 + h` of the k-layer on row `r`. -/
theorem head_k (A : Inputs) (r : Fin 262144) (h : Fin 4) (d : Fin 64) :
    val_main_v13 (F := Ideal) A.k A.Wk A.bk (ix3 r h d) = proj A.k A.Wk A.bk r (col h d) := by
  rw [val_main_v13_apply, val_main_v12_apply]
  have e : idx_main_v12 (idx_main_v13 (ix3 r h d)) = ix2 r (col h d) := funext fun a => Fin.ext (by
    match a with
    | ⟨0, _⟩ => show ((r.val * 64 + d.val) * 4 + h.val) / 256 = r.val; omega
    | ⟨1, _⟩ => show ((r.val * 64 + d.val) * 4 + h.val) % 256 = d.val * 4 + h.val; omega)
  rw [e, layer_k]

/-- Output `j` of the v-layer on row `r`, as the reference computes it: the row against row `j` of the weights, plus the offset. -/
theorem layer_v (A : Inputs) (r : Fin 262144) (j : Fin 256) :
    val_main_v18 (F := Ideal) A.v A.Wv A.bv (ix2 r j) = proj A.v A.Wv A.bv r j := by
  rw [val_main_v18_apply, val_main_v15_apply, val_main_v17_apply, val_main_v16_apply]
  have e1 : idx_main_v16 (idx_main_v17 (ix2 r j)) = ix1 j :=
    funext fun a => Fin.ext (by match a with | ⟨0, _⟩ => rfl)
  rw [e1]
  show (∑ k, _) + _ = (∑ c, _) + _
  congr 1
  refine Finset.sum_congr rfl fun k _ => ?_
  rw [val_main_v14_apply]
  have e2 : lidx_main_v15 (ix2 r j) k = ix2 r k :=
    funext fun a => Fin.ext (by match a with | ⟨0, _⟩ => rfl | ⟨1, _⟩ => rfl)
  have e3 : idx_main_v14 (ridx_main_v15 (ix2 r j) k) = ix2 j k :=
    funext fun a => Fin.ext (by match a with | ⟨0, _⟩ => rfl | ⟨1, _⟩ => rfl)
  rw [e2, e3]

/-- Entry `(r, h, d)` of the v-heads is output `d · 4 + h` of the v-layer on row `r`. -/
theorem head_v (A : Inputs) (r : Fin 262144) (h : Fin 4) (d : Fin 64) :
    val_main_v20 (F := Ideal) A.v A.Wv A.bv (ix3 r h d) = proj A.v A.Wv A.bv r (col h d) := by
  rw [val_main_v20_apply, val_main_v19_apply]
  have e : idx_main_v19 (idx_main_v20 (ix3 r h d)) = ix2 r (col h d) := funext fun a => Fin.ext (by
    match a with
    | ⟨0, _⟩ => show ((r.val * 64 + d.val) * 4 + h.val) / 256 = r.val; omega
    | ⟨1, _⟩ => show ((r.val * 64 + d.val) * 4 + h.val) % 256 = d.val * 4 + h.val; omega)
  rw [e, layer_v]

/-- Entry `(r, h, g)` of the scores: q-head `h` against k-head `g` over the 64 lanes, plus the bias. -/
theorem score (A : Inputs) (r : Fin 262144) (h g : Fin 4) :
    val_main_v22 (F := Ideal) A.q A.k A.bias A.Wq A.bq A.Wk A.bk (ix3 r h g) = logit A r h g := by
  rw [val_main_v22_apply, val_main_v21_apply]
  show (∑ k, _) + _ = (∑ d, _) + _
  congr 1
  refine Finset.sum_congr rfl fun k _ => ?_
  have el : lidx_main_v21 (ix3 r h g) k = ix3 r h k :=
    funext fun a => Fin.ext (by match a with | ⟨0, _⟩ => rfl | ⟨1, _⟩ => rfl | ⟨2, _⟩ => rfl)
  have er : ridx_main_v21 (ix3 r h g) k = ix3 r g k :=
    funext fun a => Fin.ext (by match a with | ⟨0, _⟩ => rfl | ⟨1, _⟩ => rfl | ⟨2, _⟩ => rfl)
  rw [el, er, head_q, head_k]

/-- The reference's second result is the table of scores. -/
theorem ref_prob (A : Inputs) :
    val_main_v22 (F := Ideal) A.q A.k A.bias A.Wq A.bq A.Wk A.bk = probOut A := by
  funext i
  obtain ⟨r, h, g, rfl⟩ : ∃ (r : Fin 262144) (h g : Fin 4), i = ix3 r h g := ⟨i 0, i 1, i 2, eq_ix3 i⟩
  exact score A r h g

/-- The reference's column maximum: the fold of `max` from −∞ over the four scores of column `g`, then the maximum
    with −∞ once more, which changes nothing. -/
theorem col_max (A : Inputs) (r : Fin 262144) (g : Fin 4) :
    val_main_v25 (F := Ideal) A.q A.k A.bias A.Wq A.bq A.Wk A.bk (ix2 r g) = colMax (fun h' => logit A r h' g) := by
  rw [val_main_v25_apply, val_main_v24_apply, val_main_cst_0_apply]
  unfold val_main_v23
  rw [Host.reduce_eq_fold_single FloatOps.maximumf _ _ reducesTo_S262144x4x4_S262144x4_d1 (by decide) h_S_ (ix2 r g)]
  have hc : ∀ c : Fin 4, (by decide : S262144x4x4.Reduces [1] S262144x4).lift (ix2 r g) c = ix3 r c g := fun c => by
    funext a; apply Fin.ext; fin_cases a <;> rfl
  have hf : (val_main_v22 (F := Ideal) A.q A.k A.bias A.Wq A.bq A.Wk A.bk
      ∘ (by decide : S262144x4x4.Reduces [1] S262144x4).lift (ix2 r g)) = fun h' : Fin 4 => logit A r h' g :=
    funext fun c : Fin 4 => by
      show val_main_v22 (F := Ideal) A.q A.k A.bias A.Wq A.bq A.Wk A.bk _ = _
      rw [hc c, score]
  rw [hf]
  show max negInf ((Finset.univ : Finset (Fin 4)).fold max negInf fun h' => logit A r h' g) = _
  exact max_eq_right ((Finset.le_fold_max _).2 (Or.inl le_rfl))

/-- Entry `(r, h, g)` of the shifted exponentials: the score minus its column's maximum, exponentiated. -/
theorem exp_entry (A : Inputs) (r : Fin 262144) (h g : Fin 4) :
    val_main_v29 (F := Ideal) A.q A.k A.bias A.Wq A.bq A.Wk A.bk (ix3 r h g) = expd (fun h' => logit A r h' g) h := by
  rw [val_main_v29_apply, val_main_v28_apply, val_main_v27_apply, val_main_v26_apply]
  have e : idx_main_v26 (idx_main_v27 (ix3 r h g)) = ix2 r g :=
    funext fun a => Fin.ext (by match a with | ⟨0, _⟩ => rfl | ⟨1, _⟩ => rfl)
  rw [e, col_max, score]
  rfl

/-- The column sums of the exponentials: the sum from the zero word over the four entries of column `g`. -/
theorem col_sum (A : Inputs) (r : Fin 262144) (g : Fin 4) :
    val_main_v30 (F := Ideal) A.q A.k A.bias A.Wq A.bq A.Wk A.bk (ix2 r g)
      = ∑ h' : Fin 4, expd (fun h'' => logit A r h'' g) h' := by
  rw [val_main_v30_apply, val_main_cst_1_apply]
  show Ideal.ofBits .f32 0x00000000#32 + _ = _
  rw [Ideal.ofBits_zero_f32, zero_add]
  refine Finset.sum_congr rfl fun k _ => ?_
  have e : idx_main_v30 (ix2 r g) k = ix3 r k g :=
    funext fun a => Fin.ext (by match a with | ⟨0, _⟩ => rfl | ⟨1, _⟩ => rfl | ⟨2, _⟩ => rfl)
  rw [e, exp_entry]

/-- Entry `(r, h, g)` of the weights: the exponential over its column's sum. -/
theorem weight (A : Inputs) (r : Fin 262144) (h g : Fin 4) :
    val_main_v33 (F := Ideal) A.q A.k A.bias A.Wq A.bq A.Wk A.bk (ix3 r h g) = wgt (fun h' => logit A r h' g) h := by
  rw [val_main_v33_apply, val_main_v32_apply, val_main_v31_apply]
  have e : idx_main_v31 (idx_main_v32 (ix3 r h g)) = ix2 r g :=
    funext fun a => Fin.ext (by match a with | ⟨0, _⟩ => rfl | ⟨1, _⟩ => rfl)
  rw [e, col_sum, exp_entry]
  rfl

/-- Entry `(r, h, d)` of the mixed heads: the weights of row `h` against lane `d` of the four v-heads. -/
theorem mixed (A : Inputs) (r : Fin 262144) (h : Fin 4) (d : Fin 64) :
    val_main_v34 (F := Ideal) A.q A.k A.v A.bias A.Wq A.bq A.Wk A.bk A.Wv A.bv (ix3 r h d) = mix A r h d := by
  rw [val_main_v34_apply]
  unfold mix
  refine Finset.sum_congr rfl fun k _ => ?_
  have el : lidx_main_v34 (ix3 r h d) k = ix3 r h k :=
    funext fun a => Fin.ext (by match a with | ⟨0, _⟩ => rfl | ⟨1, _⟩ => rfl | ⟨2, _⟩ => rfl)
  have er : ridx_main_v34 (ix3 r h d) k = ix3 r k d :=
    funext fun a => Fin.ext (by match a with | ⟨0, _⟩ => rfl | ⟨1, _⟩ => rfl | ⟨2, _⟩ => rfl)
  rw [el, er, weight, head_v]

/-- The reference's first result: column `j` holds lane `j % 64` of output head `j / 64`. -/
theorem ref_x (A : Inputs) :
    val_main_v35 (F := Ideal) A.q A.k A.v A.bias A.Wq A.bq A.Wk A.bk A.Wv A.bv = xOut A := by
  funext i
  obtain ⟨r, j, rfl⟩ : ∃ (r : Fin 262144) (j : Fin 256), i = ix2 r j := ⟨i 0, i 1, eq_ix2 i⟩
  rw [val_main_v35_apply]
  have e : idx_main_v35 (ix2 r j)
      = ix3 r (⟨j.val / 64, by omega⟩ : Fin 4) (⟨j.val % 64, Nat.mod_lt _ (by decide)⟩ : Fin 64) :=
    funext fun a => Fin.ext (by
      match a with
      | ⟨0, _⟩ => show (r.val * 256 + j.val) / 256 = r.val; omega
      | ⟨1, _⟩ => show (r.val * 256 + j.val) / 64 % 4 = j.val / 64; omega
      | ⟨2, _⟩ => show (r.val * 256 + j.val) % 64 = j.val % 64; omega)
  rw [e, mixed]
  rfl

end Cert.EdgeAttn.Ref

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.BodyOps.lean ====
/-
  The operations of the kernel's body on one block of 1024 rows, each read at an index on the extended reals.

  A linear layer (`layer_apply`): the block times the staged weights plus the staged offsets. The scores of one k-head
  (`score_apply`): the k-head's 64 lanes tiled four times, multiplied into the q-projection, summed in runs of 64, plus
  four bias columns. The softmax of a block of scores over the four q-heads (`rowMax_apply`, `softCol_apply`): the
  shift by the row maximum, the exponential, the division by the row sum. One k-head's contribution to the output
  (`headMix_apply`): weight (p, h) times lane (p, d) of the v-head at column h · 64 + d.
-/
import proofs.«156817_j62414464745780_2_alg».proof.Proof.Spec
import proofs.«156817_j62414464745780_2_alg».proof.Proof.Gen.KernelIdeal.Skeleton
import proofs.«156817_j62414464745780_2_alg».proof.Proof.LibColumnForms
import proofs.«156817_j62414464745780_2_alg».proof.Proof.LibRankThreeForms
import Idealize.ShloMosaic.Lib.ValueIdx
import Idealize.ShloMosaic.Lib.ValueLayout
import Idealize.ShloMosaic.Lib.Pipeline.Value
import Idealize.ShloMosaic.PureOps.Ideal.Laws

noncomputable section

namespace Cert.EdgeAttn.Body

open Cert.KernelIdeal Cert.KernelIdeal.Gen Idealize.ShloMosaic Idealize.ShloMosaic.ValueIdx Idealize.ShloMosaic.ValueLayout Cert.EdgeAttn

local notation "DD" => dot_S1024x256_S256x256_S1024x256_1_0_0_1_n_n

/-- The row coordinate of the left operand's index is the output's row. -/
theorem dot_lhs_row (i : S1024x256.Idx) (q : (DotDims.contr DD).Idx) : (DotDims.lhsIdx DD i q 0).val = (i 0).val := by
  unfold DotDims.lhsIdx
  rw [dif_neg (show ¬(0 : Fin S1024x256.rank) ∈ DotDims.lhsBatch DD by decide), dif_pos (show (0 : Fin S1024x256.rank) ∈ DotDims.lhsNonContracting DD by decide)]
  rfl
/-- The column coordinate of the right operand's index is the output's column. -/
theorem dot_rhs_col (i : S1024x256.Idx) (q : (DotDims.contr DD).Idx) : (DotDims.rhsIdx DD i q 1).val = (i 1).val := by
  unfold DotDims.rhsIdx
  rw [dif_neg (show ¬(1 : Fin S256x256.rank) ∈ DotDims.rhsBatch DD by decide), dif_pos (show (1 : Fin S256x256.rank) ∈ DotDims.rhsNonContracting DD by decide)]
  rfl

/-- One linear layer on a block of rows: entry (p, j) is the row's product with column j of the staged weights plus
    entry j of the staged offsets (the conversion of the operands to a shorter format is the identity on the extended
    reals, and the matrix unit's product into a zero accumulator is the plain sum over the contracted coordinate). -/
theorem layer_apply (v0 : Vec Ideal S1024x256 .f32) (v6 : Vec Ideal S256x256 .bf16) (v9 : Vec Ideal S1x256 .f32)
    (p : Fin 1024) (j : Fin 256) :
    k0_pay4 v0 v6 v9 (ix2 p j) = (∑ c : Fin 256, v0 (ix2 p c) * v6 (ix2 c j)) + v9 (ix2 (0 : Fin 1) j) := by
  unfold k0_pay4
  rw [addf_apply, shapeCast_self, shapeCast_self, broadcastTo_1b_ab_apply]
  congr 1
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DotDims.lhsIdx DD (ix2 p j) ((contrEquiv1 DD 256 rfl rfl).symm k) = ix2 p k := funext fun a => Fin.ext (by
    match a with
    | ⟨0, _⟩ => exact dot_lhs_row _ _
    | ⟨1, _⟩ => exact (DotDims.lhsIdx_val_of_single DD rfl _ _).trans hk)
  have er : DotDims.rhsIdx DD (ix2 p j) ((contrEquiv1 DD 256 rfl rfl).symm k) = ix2 k j := funext fun a => Fin.ext (by
    match a with
    | ⟨0, _⟩ => exact (DotDims.rhsIdx_val_of_single DD rfl _ _).trans hk
    | ⟨1, _⟩ => exact dot_rhs_col _ _)
  rw [el, er]
  rfl

/-- The trailing axis of an [a, 256] array split into 4 heads of 64: entry (r, n, k) is entry (r, n · 64 + k). -/
theorem split_heads {α : Type} {a : ℕ} (x : (⟨2, ![a, 256]⟩ : Shape).Idx → α)
    (h : (⟨2, ![a, 256]⟩ : Shape).ShapeCasts ⟨3, ![a, 4, 64]⟩) (r : Fin a) (n : Fin 4) (k : Fin 64) (q : Fin 256)
    (hq : q.val = n.val * 64 + k.val) : shapeCast ⟨3, ![a, 4, 64]⟩ x h (ix3 r n k) = x (ix2 r q) :=
  shapeCast_apply x h _ _ (by
    rw [Shape.rowMajor_val_three, Shape.rowMajor_val_two]
    show r.val * 256 + q.val = (r.val * 4 + n.val) * 64 + k.val
    omega)

/-- The two trailing axes [4, 64] of an [a, 4, 64] array merged into 256: entry (r, n · 64 + k) is entry (r, n, k). -/
theorem merge_heads {α : Type} {a : ℕ} (x : (⟨3, ![a, 4, 64]⟩ : Shape).Idx → α)
    (h : (⟨3, ![a, 4, 64]⟩ : Shape).ShapeCasts ⟨2, ![a, 256]⟩) (r : Fin a) (n : Fin 4) (k : Fin 64) (q : Fin 256)
    (hq : q.val = n.val * 64 + k.val) : shapeCast ⟨2, ![a, 256]⟩ x h (ix2 r q) = x (ix3 r n k) :=
  shapeCast_apply x h _ _ (by
    rw [Shape.rowMajor_val_three, Shape.rowMajor_val_two]
    show (r.val * 4 + n.val) * 64 + k.val = r.val * 256 + q.val
    omega)

/-- Four copies of one [1024, 64] piece laid side by side: entry (p, j) is the piece's entry (p, j mod 64). -/
theorem tile4_apply (x : FVec Ideal S1024x64 .f32) (p : Fin 1024) (j : Fin 256) (d : Fin 64) (hd : d.val = j.val % 64) :
    concatenate S1024x256 1 [⟨S1024x64, x⟩, ⟨S1024x64, x⟩, ⟨S1024x64, x⟩, ⟨S1024x64, x⟩]
      concatenates_S1024x64_S1024x64_S1024x64_S1024x64_S1024x256_d1 (ix2 p j) = x (ix2 p d) := by
  refine concatenate_replicate_apply (t := S1024x256) (s₁ := S1024x64) 1 4 x
    concatenates_S1024x64_S1024x64_S1024x64_S1024x64_S1024x256_d1 rfl (ix2 p j) (ix2 p d) ?_ ?_
  · exact hd
  · intro b hb
    match b with
    | ⟨0, _⟩ => rfl
    | ⟨1, _⟩ => exact absurd rfl hb

/-- On a block of 1024 rows: the score of q-head `h` against k-head `g` in row `p`, from the block's q- and
    k-projections (heads laid side by side, 64 lanes each) and its flattened bias tables (column g · 4 + h). -/
def blockScore (Q K : FVec Ideal S1024x256 .f32) (B : FVec Ideal S1024x16 .f32) (p : Fin 1024) (h g : Fin 4) : EReal :=
  (∑ d : Fin 64, Q (ix2 p ⟨h.val * 64 + d.val, by omega⟩) * K (ix2 p ⟨g.val * 64 + d.val, by omega⟩))
    + B (ix2 p ⟨g.val * 4 + h.val, by omega⟩)

/-- The scores of one k-head against the four q-heads on a block of rows. The k-head's 64 lanes (columns o … o + 63 of
    the k-projection) are laid four times side by side, multiplied into the q-projection, and each run of 64 products
    is summed: entry (p, h) is the product of q-head h with that k-head; the bias columns ob … ob + 3 are added. -/
theorem score_apply (o ob : Nat) (g : Fin 4) (ho : o = g.val * 64) (hob : ob = g.val * 4)
    (hs : S1024x256.Slices ![0, o] S1024x64) (hb : S1024x16.Slices ![0, ob] S1024x4)
    (hφ : FKind.Formats .f32) (hacc : (0x00000000#32 : BitVec 32) = FKind.add.neutral .f32 hφ)
    (v12 v19 : FVec Ideal S1024x256 .f32) (v28 : FVec Ideal S1024x16 .f32) (p : Fin 1024) (h : Fin 4) :
    addf (multiReduction .add [2] S1024x4
        (shapeCast S1024x4x64 (mulf v12 (concatenate S1024x256 1
          [⟨S1024x64, extractStridedSlice S1024x64 ![0, o] v19 hs⟩, ⟨S1024x64, extractStridedSlice S1024x64 ![0, o] v19 hs⟩,
           ⟨S1024x64, extractStridedSlice S1024x64 ![0, o] v19 hs⟩, ⟨S1024x64, extractStridedSlice S1024x64 ![0, o] v19 hs⟩]
          concatenates_S1024x64_S1024x64_S1024x64_S1024x64_S1024x256_d1)) shapeCasts_S1024x256_S1024x4x64)
        0x00000000#32 reduces_S1024x4x64_S1024x4 hφ hacc)
      (extractStridedSlice S1024x4 ![0, ob] v28 hb) (ix2 p h)
    = blockScore v12 v19 v28 p h g := by
  unfold blockScore
  rw [addf_apply]
  congr 1
  · refine (Ideal.multiReduction_add_single _ _ reduces_S1024x4x64_S1024x4 hφ hacc (ix2 p h)).trans ?_
    refine Finset.sum_congr rfl fun d _ => ?_
    have hl : Shape.Reduces.lift reduces_S1024x4x64_S1024x4 (ix2 p h) d = ix3 p h (⟨d.val, d.isLt⟩ : Fin 64) := by
      funext c; apply Fin.ext; fin_cases c <;> rfl
    rw [hl, split_heads _ _ p h ⟨d.val, d.isLt⟩ ⟨h.val * 64 + d.val, by have := d.isLt; change d.val < 64 at this; omega⟩ rfl, mulf_apply]
    congr 1
    rw [tile4_apply _ p _ ⟨d.val, d.isLt⟩ (by have := d.isLt; change d.val < 64 at this; show d.val = (h.val * 64 + d.val) % 64; omega)]
    exact slice2_axis1_apply o v19 hs p _ _ (by show g.val * 64 + d.val = o + d.val; omega)
  · exact slice2_axis1_apply ob v28 hb p h _ (by show g.val * 4 + h.val = ob + h.val; omega)

/-- The maximum over the four q-heads of each row of a block of scores, folded from −∞. -/
def rowMax (P : FVec Ideal S1024x4 .f32) : FVec Ideal S1024 .f32 :=
  multiReduction .maximumf [1] S1024 P 0xFF800000#32 reduces_S1024x4_S1024 (.inl rfl) rfl

/-- The block's scores shifted by a per-row value `M`, exponentiated, and divided by their sum over the four
    q-heads: the softmax of each row once `M` is the row's maximum. -/
def softCol (P : FVec Ideal S1024x4 .f32) (M : FVec Ideal S1024 .f32) : FVec Ideal S1024x4 .f32 :=
  divf (exp (subf P (broadcastTo S1024x4 (shapeCast S1024x1 M shapeCasts_S1024_S1024x1) broadcasts_S1024x1_S1024x4)))
    (broadcastTo S1024x4 (shapeCast S1024x1
      (multiReduction .add [1] S1024
        (exp (subf P (broadcastTo S1024x4 (shapeCast S1024x1 M shapeCasts_S1024_S1024x1) broadcasts_S1024x1_S1024x4)))
        0x00000000#32 reduces_S1024x4_S1024 (.inl rfl) rfl) shapeCasts_S1024_S1024x1) broadcasts_S1024x1_S1024x4)

/-- One k-head's contribution to the output block: weight (p, h) times lane (p, d) of the v-head, at column h · 64 + d. -/
def headMix (W : FVec Ideal S1024x4 .f32) (Vs : FVec Ideal S1024x64 .f32) : FVec Ideal S1024x256 .f32 :=
  shapeCast S1024x256 (mulf
    (broadcastTo S1024x4x64 (shapeCast S1024x4x1 W shapeCasts_S1024x4_S1024x4x1) broadcasts_S1024x4x1_S1024x4x64)
    (broadcastTo S1024x4x64 (shapeCast S1024x1x64 Vs shapeCasts_S1024x64_S1024x1x64) broadcasts_S1024x1x64_S1024x4x64))
    shapeCasts_S1024x4x64_S1024x256

/-- A [1024, 4] block reduced over its four lanes: the reduced index p with lane k put back is (p, k). -/
theorem lift_row (p : Fin 1024) (k : Fin (S1024x4.size 1)) :
    Shape.Reduces.lift reduces_S1024x4_S1024 (ix1 p) k = ix2 p (⟨k.val, k.isLt⟩ : Fin 4) := by
  funext c; apply Fin.ext; fin_cases c <;> rfl

theorem rowMax_apply (P : FVec Ideal S1024x4 .f32) (p : Fin 1024) :
    rowMax P (ix1 p) = colMax (fun h => P (ix2 p h)) := by
  unfold rowMax colMax
  refine (Ideal.multiReduction_maximumf_single P 0xFF800000#32 reduces_S1024x4_S1024 (.inl rfl) rfl (ix1 p)).trans ?_
  have hf : (P ∘ Shape.Reduces.lift reduces_S1024x4_S1024 (ix1 p)) = fun k : Fin 4 => P (ix2 p k) :=
    funext fun k => congrArg P (lift_row p k)
  exact congrArg (fun f => Finset.fold max (Ideal.ofBits .f32 0xFF800000#32) f (Finset.univ : Finset (Fin 4))) hf

theorem softCol_apply (P : FVec Ideal S1024x4 .f32) (M : FVec Ideal S1024 .f32) (p : Fin 1024) (h : Fin 4)
    (hM : M (ix1 p) = colMax (fun h' => P (ix2 p h'))) :
    softCol P M (ix2 p h) = wgt (fun h' => P (ix2 p h')) h := by
  unfold softCol wgt expd
  rw [divf_apply, broadcastTo_a1_ab_apply, shapeCast_a_a1_apply]
  have e : ∀ k : Fin 4, exp (subf P (broadcastTo S1024x4 (shapeCast S1024x1 M shapeCasts_S1024_S1024x1) broadcasts_S1024x1_S1024x4)) (ix2 p k)
      = Ideal.exp (P (ix2 p k) - colMax (fun h' => P (ix2 p h'))) := by
    intro k
    show Ideal.exp ((subf P _) (ix2 p k)) = _
    rw [subf_apply, broadcastTo_a1_ab_apply, shapeCast_a_a1_apply, hM]
  rw [e h]
  congr 1
  refine (Ideal.multiReduction_add_single _ 0x00000000#32 reduces_S1024x4_S1024 (.inl rfl) rfl (ix1 p)).trans ?_
  refine Finset.sum_congr rfl fun k _ => ?_
  rw [lift_row]
  exact e ⟨k.val, k.isLt⟩

/-- Column j of a head's contribution: the weight of head j / 64 times lane j mod 64 of the v-head. -/
theorem headMix_apply (W : FVec Ideal S1024x4 .f32) (Vs : FVec Ideal S1024x64 .f32) (p : Fin 1024) (j : Fin 256) :
    headMix W Vs (ix2 p j)
      = W (ix2 p ⟨j.val / 64, by omega⟩) * Vs (ix2 p ⟨j.val % 64, Nat.mod_lt _ (by decide)⟩) := by
  unfold headMix
  rw [merge_heads _ _ p ⟨j.val / 64, by omega⟩ ⟨j.val % 64, Nat.mod_lt _ (by decide)⟩ j (by show j.val = j.val / 64 * 64 + j.val % 64; omega),
    mulf_apply, broadcastTo_ab1_abc_apply, shapeCast_ab_ab1_apply, broadcastTo_a1c_abc_apply, shapeCast_ac_a1c_apply]

/-- The v-head read out of the block's v-projection: lanes o … o + 63 with o = g · 64. -/
theorem headMix_slice_apply (o : Nat) (g : Fin 4) (ho : o = g.val * 64) (hs : S1024x256.Slices ![0, o] S1024x64)
    (W : FVec Ideal S1024x4 .f32) (Vv : FVec Ideal S1024x256 .f32) (p : Fin 1024) (j : Fin 256) :
    headMix W (extractStridedSlice S1024x64 ![0, o] Vv hs) (ix2 p j)
      = W (ix2 p ⟨j.val / 64, by omega⟩) * Vv (ix2 p ⟨g.val * 64 + j.val % 64, by omega⟩) := by
  rw [headMix_apply]
  congr 1
  exact slice2_axis1_apply o Vv hs p _ _ (by show g.val * 64 + j.val % 64 = o + j.val % 64; omega)

end Cert.EdgeAttn.Body

end
-- ==== Proof.BodyBlock.lean ====
/-
  What one grid point writes into its two output blocks, as functions of the block's three projections and its
  flattened bias tables, index by index.

  The second output's block is the four k-heads' score columns laid side by side (`pBlock_apply`): column g · 4 + h
  holds the score of q-head h against k-head g. The first output's block starts from zero and adds, for g = 0 … 3,
  the contribution of k-head g: the softmax over h of its score column, times the v-head g (`xBlock_apply`).
-/
import proofs.«156817_j62414464745780_2_alg».proof.Proof.BodyOps
import proofs.«156817_j62414464745780_2_alg».proof.Proof.Gen.KernelIdeal.Frame

noncomputable section

namespace Cert.EdgeAttn.Body

open Cert.KernelIdeal Cert.KernelIdeal.Gen Idealize.ShloMosaic Idealize.ShloMosaic.ValueIdx Idealize.ShloMosaic.ValueLayout Cert.EdgeAttn

theorem hz : (![0, 0] : Fin 2 → Nat) = fun _ => 0 := funext fun a => by fin_cases a <;> rfl

/-- The first output's block from the block's projections `Q`, `K`, `Vv` and bias columns `B`. -/
def xBlock (Q K Vv : FVec Ideal S1024x256 .f32) (B : FVec Ideal S1024x16 .f32) : FVec Ideal S1024x256 .f32 :=
  k0_pay2 Q K Vv B
    (k0_pay13 Q K Vv B (k0_pay8 (F := Ideal)) (extractStridedSlice S1024x64 ![0, 0] Vv slices_S1024x256_o0_0_S1024x64) (shapeCast S1024x4x64 (mulf Q (concatenate S1024x256 1 [⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩] concatenates_S1024x64_S1024x64_S1024x64_S1024x64_S1024x256_d1)) shapeCasts_S1024x256_S1024x4x64))
    (k0_pay14 Vv) (k0_pay15 Q K B) (k0_pay16 Q K B)

/-- The second output's block likewise. -/
def pBlock (Q K : FVec Ideal S1024x256 .f32) (B : FVec Ideal S1024x16 .f32) : FVec Ideal S1024x16 .f32 :=
  k0_pay3 Q K B (k0_pay11 B (shapeCast S1024x4x64 (mulf Q (concatenate S1024x256 1 [⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩] concatenates_S1024x64_S1024x64_S1024x64_S1024x64_S1024x256_d1)) shapeCasts_S1024x256_S1024x4x64)) (k0_pay12 Q K B) (k0_pay15 Q K B)

/-- What the body leaves in the first output's buffer is `xBlock` of the three layers applied to the input blocks. -/
theorem out10_eq (x0 x1 x2 : Vec Ideal S1024x256 .f32) (x3 : Vec Ideal S1024x16 .f32) (x4 : Vec Ideal S256x256 .bf16)
    (x5 : Vec Ideal S1x256 .f32) (x6 : Vec Ideal S256x256 .bf16) (x7 : Vec Ideal S1x256 .f32) (x8 : Vec Ideal S256x256 .bf16)
    (x9 : Vec Ideal S1x256 .f32) :
    out0_10 x0 x1 x2 x3 x4 x5 x6 x7 x8 x9 = xBlock (k0_pay4 x0 x4 x5) (k0_pay5 x1 x6 x7) (k0_pay6 x2 x8 x9) (k0_pay7 x3) := by
  unfold out0_10
  rw [View.canon_unit_zero hz]
  simp only [View.ld_unit_zero (S := S1024x256) hz, View.ld_unit_zero (S := S256x256) hz, View.ld_unit_zero (S := S1x256) hz,
    View.ld_unit_zero (S := S1024x16) hz]
  rfl

/-- And in the second output's buffer, `pBlock`. -/
theorem out11_eq (x0 x1 x2 : Vec Ideal S1024x256 .f32) (x3 : Vec Ideal S1024x16 .f32) (x4 : Vec Ideal S256x256 .bf16)
    (x5 : Vec Ideal S1x256 .f32) (x6 : Vec Ideal S256x256 .bf16) (x7 : Vec Ideal S1x256 .f32) (x8 : Vec Ideal S256x256 .bf16)
    (x9 : Vec Ideal S1x256 .f32) :
    out0_11 x0 x1 x2 x3 x4 x5 x6 x7 x8 x9 = pBlock (k0_pay4 x0 x4 x5) (k0_pay5 x1 x6 x7) (k0_pay7 x3) := by
  unfold out0_11
  rw [View.canon_unit_zero hz]
  simp only [View.ld_unit_zero (S := S1024x256) hz, View.ld_unit_zero (S := S256x256) hz, View.ld_unit_zero (S := S1x256) hz,
    View.ld_unit_zero (S := S1024x16) hz]
  rfl

section
variable (Q K Vv : FVec Ideal S1024x256 .f32) (B : FVec Ideal S1024x16 .f32) (p : Fin 1024)

/-- The four score columns. -/
theorem score0 (h : Fin 4) : (k0_pay11 B (shapeCast S1024x4x64 (mulf Q (concatenate S1024x256 1 [⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩] concatenates_S1024x64_S1024x64_S1024x64_S1024x64_S1024x256_d1)) shapeCasts_S1024x256_S1024x4x64)) (ix2 p h) = blockScore Q K B p h 0 :=
  score_apply 0 0 0 (by decide) (by decide) _ _ (.inl rfl) rfl Q K B p h
theorem score1 (h : Fin 4) : (k0_pay12 Q K B) (ix2 p h) = blockScore Q K B p h 1 :=
  score_apply 64 4 1 (by decide) (by decide) _ _ (.inl rfl) rfl Q K B p h
theorem score2 (h : Fin 4) : (k0_pay15 Q K B) (ix2 p h) = blockScore Q K B p h 2 :=
  score_apply 128 8 2 (by decide) (by decide) _ _ (.inl rfl) rfl Q K B p h
theorem score3 (h : Fin 4) : (k0_pay1 Q K B) (ix2 p h) = blockScore Q K B p h 3 :=
  score_apply 192 12 3 (by decide) (by decide) _ _ (.inl rfl) rfl Q K B p h

/-- One k-head's contribution at column j, given that `P` is its score column and `M` its row maxima. -/
theorem contrib_apply (o : Nat) (g : Fin 4) (ho : o = g.val * 64) (hs : S1024x256.Slices ![0, o] S1024x64)
    (P : FVec Ideal S1024x4 .f32) (M : FVec Ideal S1024 .f32) (hM : M (ix1 p) = colMax (fun h' => P (ix2 p h')))
    (hP : ∀ h, P (ix2 p h) = blockScore Q K B p h g) (j : Fin 256) :
    headMix (softCol P M) (extractStridedSlice S1024x64 ![0, o] Vv hs) (ix2 p j)
      = wgt (fun h' => blockScore Q K B p h' g) ⟨j.val / 64, by omega⟩ * Vv (ix2 p ⟨g.val * 64 + j.val % 64, by omega⟩) := by
  rw [headMix_slice_apply o g ho, softCol_apply P M p _ hM, show (fun h' => P (ix2 p h')) = fun h' => blockScore Q K B p h' g from funext hP]

theorem xBlock_apply (j : Fin 256) :
    xBlock Q K Vv B (ix2 p j)
      = ∑ g : Fin 4, wgt (fun h' => blockScore Q K B p h' g) ⟨j.val / 64, by omega⟩ * Vv (ix2 p ⟨g.val * 64 + j.val % 64, by omega⟩) := by
  have e : xBlock Q K Vv B = addf (addf (addf (addf (k0_pay8 (F := Ideal))
        (headMix (softCol (k0_pay11 B (shapeCast S1024x4x64 (mulf Q (concatenate S1024x256 1 [⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩] concatenates_S1024x64_S1024x64_S1024x64_S1024x64_S1024x256_d1)) shapeCasts_S1024x256_S1024x4x64)) (rowMax (k0_pay11 B (shapeCast S1024x4x64 (mulf Q (concatenate S1024x256 1 [⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩, ⟨S1024x64, extractStridedSlice S1024x64 ![0, 0] K slices_S1024x256_o0_0_S1024x64⟩] concatenates_S1024x64_S1024x64_S1024x64_S1024x64_S1024x256_d1)) shapeCasts_S1024x256_S1024x4x64)))) (extractStridedSlice S1024x64 ![0, 0] Vv slices_S1024x256_o0_0_S1024x64)))
        (headMix (softCol (k0_pay12 Q K B) (rowMax (k0_pay12 Q K B))) (extractStridedSlice S1024x64 ![0, 64] Vv slices_S1024x256_o0_64_S1024x64)))
        (headMix (softCol (k0_pay15 Q K B) (rowMax (k0_pay15 Q K B))) (extractStridedSlice S1024x64 ![0, 128] Vv slices_S1024x256_o0_128_S1024x64)))
        (headMix (softCol (k0_pay1 Q K B) (rowMax (k0_pay1 Q K B))) (extractStridedSlice S1024x64 ![0, 192] Vv slices_S1024x256_o0_192_S1024x64)) := rfl
  rw [e, addf_apply, addf_apply, addf_apply, addf_apply,
    contrib_apply Q K Vv B p 0 0 (by decide) _ _ _ (rowMax_apply _ p) (score0 Q K B p) j,
    contrib_apply Q K Vv B p 64 1 (by decide) _ _ _ (rowMax_apply _ p) (score1 Q K B p) j,
    contrib_apply Q K Vv B p 128 2 (by decide) _ _ _ (rowMax_apply _ p) (score2 Q K B p) j,
    contrib_apply Q K Vv B p 192 3 (by decide) _ _ _ (rowMax_apply _ p) (score3 Q K B p) j,
    Fin.sum_univ_four]
  have z : (k0_pay8 (F := Ideal)) (ix2 p j) = 0 := Ideal.ofBits_zero_f32
  rw [z, zero_add]

/-- The second output's block at column c = g · 4 + h is the score of q-head h against k-head g. -/
theorem pBlock_apply (g h : Fin 4) (c : Fin 16) (hc : c.val = g.val * 4 + h.val) :
    pBlock Q K B (ix2 p c) = blockScore Q K B p h g := by
  unfold pBlock k0_pay3
  have hi : ∀ b : Fin S1024x4.rank, b.cast (rfl : S1024x4.rank = S1024x16.rank) ≠ (1 : Fin S1024x16.rank) →
      ((ix2 p h : S1024x4.Idx) b).val = ((ix2 p c : S1024x16.Idx) (b.cast rfl)).val := by
    intro b hb
    match b with
    | ⟨0, _⟩ => rfl
    | ⟨1, _⟩ => exact absurd rfl hb
  match g, hc with
  | ⟨0, _⟩, hc =>
    refine (concatenate_apply_piece (t := S1024x16) 1 _ _ (ix2 p c) 0 ?_ S1024x4 _ rfl rfl 0 rfl (ix2 p h) hi ?_).trans ?_
    · show 0 < 4; decide
    · have hc' : c.val = 0 * 4 + h.val := hc
      show 0 + h.val = c.val; omega
    · exact score0 Q K B p h
  | ⟨1, _⟩, hc =>
    refine (concatenate_apply_piece (t := S1024x16) 1 _ _ (ix2 p c) 1 ?_ S1024x4 _ rfl rfl 4 rfl (ix2 p h) hi ?_).trans ?_
    · show 1 < 4; decide
    · have hc' : c.val = 1 * 4 + h.val := hc
      show 4 + h.val = c.val; omega
    · exact score1 Q K B p h
  | ⟨2, _⟩, hc =>
    refine (concatenate_apply_piece (t := S1024x16) 1 _ _ (ix2 p c) 2 ?_ S1024x4 _ rfl rfl 8 rfl (ix2 p h) hi ?_).trans ?_
    · show 2 < 4; decide
    · have hc' : c.val = 2 * 4 + h.val := hc
      show 8 + h.val = c.val; omega
    · exact score2 Q K B p h
  | ⟨3, _⟩, hc =>
    refine (concatenate_apply_piece (t := S1024x16) 1 _ _ (ix2 p c) 3 ?_ S1024x4 _ rfl rfl 12 rfl (ix2 p h) hi ?_).trans ?_
    · show 3 < 4; decide
    · have hc' : c.val = 3 * 4 + h.val := hc
      show 12 + h.val = c.val; omega
    · exact score3 Q K B p h

end

end Cert.EdgeAttn.Body

end
-- ==== Proof.PointMath.lean ====
/-
  One grid point against the specification. Point `t` works on rows t · 1024 … t · 1024 + 1023. If its input blocks
  hold those rows of q, k, v and of the flattened bias tables, and the staged weights and offsets hold the three
  layers with their outputs in head-major order (column j of the staged layer is output `lane j` of the layer), then
  the block it writes to the first output holds those rows of `xOut`, and the block it writes to the second holds
  the scores with the two head axes flattened k-head first.
-/
import proofs.«156817_j62414464745780_2_alg».proof.Proof.BodyBlock

noncomputable section

namespace Cert.EdgeAttn.Body

open Cert.KernelIdeal Cert.KernelIdeal.Gen Idealize.ShloMosaic Idealize.ShloMosaic.ValueIdx Idealize.ShloMosaic.ValueLayout Cert.EdgeAttn

/-- Row `p` of point `t`'s block is row t · 1024 + p of the arrays. -/
def row (t : Fin 256) (p : Fin 1024) : Fin 262144 := ⟨t.val * 1024 + p.val, by omega⟩

/-- Head-major position h · 64 + d is lane d of head h. -/
theorem lane_head (h : Fin 4) (d : Fin 64) (hlt : h.val * 64 + d.val < 256) : lane ⟨h.val * 64 + d.val, hlt⟩ = col h d :=
  Fin.ext (by show (h.val * 64 + d.val) % 64 * 4 + (h.val * 64 + d.val) / 64 = d.val * 4 + h.val; omega)

/-- The second result with its two head axes flattened, k-head first: column g · 4 + h is the score of q-head h
    against k-head g. -/
def probFlat (A : Inputs) : (⟨2, ![262144, 16]⟩ : Shape).Idx → EReal := fun i =>
  logit A (i 0) ⟨(i 1).val % 4, Nat.mod_lt _ (by decide)⟩
    ⟨(i 1).val / 4, by have := (i 1).isLt; change (i 1).val < 16 at this; omega⟩

section
variable (t : Fin 256)

/-- A layer on the block, against the layer of the specification. -/
theorem layer_point (x : Rows.Idx → EReal) (W : Mat.Idx → EReal) (b : Row.Idx → EReal)
    (xb : Vec Ideal S1024x256 .f32) (wb : Vec Ideal S256x256 .bf16) (bb : Vec Ideal S1x256 .f32)
    (hx : ∀ (p : Fin 1024) (k : Fin 256), xb (ix2 p k) = x (ix2 (row t p) k))
    (hw : ∀ k j : Fin 256, wb (ix2 k j) = W (ix2 (lane j) k))
    (hb : ∀ j : Fin 256, bb (ix2 (0 : Fin 1) j) = b (ix1 (lane j))) (p : Fin 1024) (j : Fin 256) :
    k0_pay4 xb wb bb (ix2 p j) = proj x W b (row t p) (lane j) := by
  rw [layer_apply]
  unfold proj
  rw [hb]
  congr 1
  exact Finset.sum_congr rfl fun c _ => by rw [hx, hw]

variable (A : Inputs) (Q K Vv : FVec Ideal S1024x256 .f32) (B : FVec Ideal S1024x16 .f32)
  (hQ : ∀ (p : Fin 1024) (j : Fin 256), Q (ix2 p j) = proj A.q A.Wq A.bq (row t p) (lane j))
  (hK : ∀ (p : Fin 1024) (j : Fin 256), K (ix2 p j) = proj A.k A.Wk A.bk (row t p) (lane j))
  (hV : ∀ (p : Fin 1024) (j : Fin 256), Vv (ix2 p j) = proj A.v A.Wv A.bv (row t p) (lane j))
  (hB : ∀ (p : Fin 1024) (g h : Fin 4) (c : Fin 16), c.val = g.val * 4 + h.val → B (ix2 p c) = A.bias (ix3 (row t p) h g))

include hQ hK hB in
/-- The block's scores are the specification's on the block's rows. -/
theorem score_point (p : Fin 1024) (h g : Fin 4) : blockScore Q K B p h g = logit A (row t p) h g := by
  unfold blockScore logit
  rw [hB p g h _ rfl]
  congr 1
  refine Finset.sum_congr rfl fun d _ => ?_
  rw [hQ, hK, lane_head, lane_head]

include hQ hK hV hB in
/-- The first output's block. -/
theorem x_point (p : Fin 1024) (j : Fin 256) : xBlock Q K Vv B (ix2 p j) = xOut A (ix2 (row t p) j) := by
  rw [xBlock_apply]
  show _ = mix A (row t p) ⟨j.val / 64, _⟩ ⟨j.val % 64, _⟩
  unfold mix
  refine Finset.sum_congr rfl fun g _ => ?_
  rw [show (fun h' => blockScore Q K B p h' g) = fun h' => logit A (row t p) h' g from
      funext fun h' => score_point t A Q K B hQ hK hB p h' g, hV]
  exact congrArg (fun z => wgt (fun h' => logit A (row t p) h' g) ⟨j.val / 64, by omega⟩ * proj A.v A.Wv A.bv (row t p) z)
    (lane_head g ⟨j.val % 64, Nat.mod_lt _ (by decide)⟩ (by show g.val * 64 + j.val % 64 < 256; omega))

include hQ hK hB in
/-- The second output's block. -/
theorem p_point (p : Fin 1024) (c : Fin 16) : pBlock Q K B (ix2 p c) = probFlat A (ix2 (row t p) c) := by
  rw [pBlock_apply Q K B p ⟨c.val / 4, by omega⟩ ⟨c.val % 4, Nat.mod_lt _ (by decide)⟩ c (by show c.val = c.val / 4 * 4 + c.val % 4; omega)]
  exact score_point t A Q K B hQ hK hB p _ _

end

end Cert.EdgeAttn.Body

end
-- ==== Proof.HostSide.lean ====
/-
  The host operations before the kernel launch, read index by index.

  Each layer's weight matrix W has its rows permuted by a constant table and is then transposed: entry (k, j) of the
  result is W[t(j), k], where t(j) = (j % 64) · 4 + j / 64 sends the head-major position j = h · 64 + d to the
  interleaved output d · 4 + h (Spec.lean `lane`). Each offset vector is permuted by the same table and given a leading
  unit axis. The 4 × 4 bias tables are transposed and flattened: column g · 4 + h of row r is bias[r, h, g].

  The table is an array of 32-bit words; the gather reads each word as a signed integer and clamps it into [0, 255].
  Every entry of the table is its position's t(j) < 256 (`lit0_val`, by evaluation), so the clamp changes nothing.
-/
import proofs.«156817_j62414464745780_2_alg».proof.Proof.Spec
import proofs.«156817_j62414464745780_2_alg».proof.Proof.Gen.KernelIdeal.Frame
import Idealize.ShloMosaic.Lib.ValueLayout

noncomputable section

namespace Cert.EdgeAttn.Host

open Cert.KernelIdeal Cert.KernelIdeal.Gen Idealize.ShloMosaic Idealize.ShloMosaic.TcCoe Idealize.SL.Sem Idealize.ShloMosaic.ValueIdx Cert.EdgeAttn

/-! ## A gather read at an index

Both gathers take one start index per result row (the start indices are a [256, 1] array, the index vector on axis 1)
and name operand axis 0 with it, that axis collapsed. The start index is read as a signed integer and clamped so that
the slice of size 1 fits: into [0, 255]. -/

section Gather
variable {α : Type}

/-- Rows of a matrix: result entry `(j, k)` is the operand's entry `(s, k)`, `s` the clamped start index of row `j`. -/
theorem gather_rows_apply {w : Nat} (x : S256x256.Idx → α) (idx : IVec S256x1 w) (j k : Fin 256) :
    Host.gather gather_S256x256_S256x1_S256x256_1_0_n_n_0_1_1256 x idx (ix2 j k)
      = x (ix2 ⟨min (idx (ix2 j 0)).toInt.toNat 255, by omega⟩ k) := by
  unfold Host.gather
  congr 1
  funext a
  refine Fin.ext ?_
  match a with
  | ⟨0, _⟩ =>
    show gather_S256x256_S256x1_S256x256_1_0_n_n_0_1_1256.start (ix2 j k) idx 0
        + gather_S256x256_S256x1_S256x256_1_0_n_n_0_1_1256.batchCoord (ix2 j k) 0
        + gather_S256x256_S256x1_S256x256_1_0_n_n_0_1_1256.offCoord (ix2 j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x256_S256x1_S256x256_1_0_n_n_0_1_1256.startIndexMap from List.mem_singleton.mpr rfl)]
    have hsi : gather_S256x256_S256x1_S256x256_1_0_n_n_0_1_1256.siIdx (ix2 j k)
        ⟨List.idxOf (0 : Fin 2) gather_S256x256_S256x1_S256x256_1_0_n_n_0_1_1256.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    show gather_S256x256_S256x1_S256x256_1_0_n_n_0_1_1256.start (ix2 j k) idx 1
        + gather_S256x256_S256x1_S256x256_1_0_n_n_0_1_1256.batchCoord (ix2 j k) 1
        + gather_S256x256_S256x1_S256x256_1_0_n_n_0_1_1256.offCoord (ix2 j k) 1 = _
    rw [GatherDims.batchCoord_eq_zero _ _ _ List.not_mem_nil]
    unfold GatherDims.start
    rw [dif_neg (show (1 : Fin 2) ∉ gather_S256x256_S256x1_S256x256_1_0_n_n_0_1_1256.startIndexMap from by decide)]
    unfold GatherDims.offCoord
    rw [dif_pos (show (1 : Fin 2) ∈ gather_S256x256_S256x1_S256x256_1_0_n_n_0_1_1256.sKept from by decide)]
    simp only [Nat.zero_add]
    rfl

/-- Entries of a vector: result entry `j` is the operand's entry at the clamped start index of `j`. -/
theorem gather_entries_apply {w : Nat} (x : S256.Idx → α) (idx : IVec S256x1 w) (j : Fin 256) :
    Host.gather gather_S256_S256x1_S256_n_0_n_n_0_1_1 x idx (ix1 j)
      = x (ix1 ⟨min (idx (ix2 j 0)).toInt.toNat 255, by omega⟩) := by
  unfold Host.gather
  congr 1
  funext a
  refine Fin.ext ?_
  match a with
  | ⟨0, _⟩ =>
    show gather_S256_S256x1_S256_n_0_n_n_0_1_1.start (ix1 j) idx 0
        + gather_S256_S256x1_S256_n_0_n_n_0_1_1.batchCoord (ix1 j) 0
        + gather_S256_S256x1_S256_n_0_n_n_0_1_1.offCoord (ix1 j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S256_S256x1_S256_n_0_n_n_0_1_1.startIndexMap from List.mem_singleton.mpr rfl)]
    have hsi : gather_S256_S256x1_S256_n_0_n_n_0_1_1.siIdx (ix1 j)
        ⟨List.idxOf (0 : Fin 1) gather_S256_S256x1_S256_n_0_n_n_0_1_1.startIndexMap,
          List.idxOf_lt_length_iff.2 (List.mem_singleton.mpr rfl)⟩ = ix2 j 0 := by
      funext b; refine Fin.ext ?_
      match b with
      | ⟨0, _⟩ => rfl
      | ⟨1, _⟩ => rfl
    rw [hsi]
    rfl

end Gather

/-! ## The table of start indices -/

/-- Word `j` of the table is `(j % 64) · 4 + j / 64` as a signed integer: 256 evaluations. -/
theorem lit0_val : ∀ j : Fin 256, (lit0 j).toInt.toNat = j.val % 64 * 4 + j.val / 64 := by decide

/-- The start indices as the program builds them: the table, to which 256 is added where a flag is set (the flags
    are the constant `false`: the wrap of negative indices, none here), as a column. -/
def rowTable : IVec S256x1 32 :=
  broadcastInDim S256x1 ![0] bcast_S256_S256x1_0
    (select (constantI S256 1 0#1)
      (addi (fun i => lit0 (S256.rowMajor i)) (broadcastInDim S256 ![] bcast_S_S256 (constantI S_ 32 256#32)))
      fun i => lit0 (S256.rowMajor i))

/-- Row `j` of the column is word `j` of the table. -/
theorem rowTable_apply (j : Fin 256) (z : Fin 1) : rowTable (ix2 j z) = lit0 j := by
  unfold rowTable
  rw [broadcastInDim_apply ![0] bcast_S256_S256x1_0 _ (ix2 j z) (ix1 j)
    (fun a => match a with | ⟨0, _⟩ => rfl)]
  rw [select_apply, constantI_apply, select_zero]
  exact congrArg lit0 (Fin.ext (Shape.rowMajor_val_one _))

section AtTable
variable {α : Type}

/-- The clamped start index of row `j` is `lane j`. -/
theorem clamp_rowTable (j : Fin 256) : min (rowTable (ix2 j 0)).toInt.toNat 255 = (lane j).val := by
  rw [rowTable_apply, lit0_val]
  show min (j.val % 64 * 4 + j.val / 64) 255 = j.val % 64 * 4 + j.val / 64
  have := j.isLt
  omega

/-- The rows of a matrix gathered at the table: row `j` of the result is row `lane j` of the operand. -/
theorem gather_rows_rowTable (x : S256x256.Idx → α) (j k : Fin 256) :
    Host.gather gather_S256x256_S256x1_S256x256_1_0_n_n_0_1_1256 x rowTable (ix2 j k) = x (ix2 (lane j) k) := by
  rw [gather_rows_apply]
  exact congrArg (fun a => x (ix2 a k)) (Fin.ext (clamp_rowTable j))

/-- The entries of a vector gathered at the table: entry `j` of the result is entry `lane j` of the operand. -/
theorem gather_entries_rowTable (x : S256.Idx → α) (j : Fin 256) :
    Host.gather gather_S256_S256x1_S256_n_0_n_n_0_1_1 x rowTable (ix1 j) = x (ix1 (lane j)) := by
  rw [gather_entries_apply]
  exact congrArg (fun a => x (ix1 a)) (Fin.ext (clamp_rowTable j))

end AtTable

variable (m : (ℓ : Loc nD τ sig) → Buf (Elt Ideal) ℓ)

/-! ## The weights: rows permuted, then transposed -/

theorem V_w4 (c : Dev nD) (k j : Fin 256) :
    (V m c main_v34 : S256x256.Idx → EReal) (ix2 k j)
      = (m ((c : Thread nD τ).loc main_arg4) : S256x256.Idx → EReal) (ix2 (lane j) k) := by
  have e : (V m c main_v34 : S256x256.Idx → EReal)
      = (truncf (F := Ideal) (φ := .f32) .bf16 (transpose S256x256 [1, 0]
          (Host.gather gather_S256x256_S256x1_S256x256_1_0_n_n_0_1_1256
            (m (c, Proc.devRef .tc main_arg4) : S256x256.Idx → EReal) rowTable)
          transposes_S256x256_S256x256_1_0) bitsLt_bf16_f32 : S256x256.Idx → EReal) := by
    show StableHlo.after hostOps0 (fun b => m (c, b)) (Proc.devRef .tc main_v34) = _
    unfold hostOps0
    after_results_simp
    rfl
  rw [e, truncf_apply, transpose_ix2_apply]
  exact gather_rows_rowTable _ j k

theorem V_w6 (c : Dev nD) (k j : Fin 256) :
    (V m c main_v36 : S256x256.Idx → EReal) (ix2 k j)
      = (m ((c : Thread nD τ).loc main_arg6) : S256x256.Idx → EReal) (ix2 (lane j) k) := by
  have e : (V m c main_v36 : S256x256.Idx → EReal)
      = (truncf (F := Ideal) (φ := .f32) .bf16 (transpose S256x256 [1, 0]
          (Host.gather gather_S256x256_S256x1_S256x256_1_0_n_n_0_1_1256
            (m (c, Proc.devRef .tc main_arg6) : S256x256.Idx → EReal) rowTable)
          transposes_S256x256_S256x256_1_0) bitsLt_bf16_f32 : S256x256.Idx → EReal) := by
    show StableHlo.after hostOps0 (fun b => m (c, b)) (Proc.devRef .tc main_v36) = _
    unfold hostOps0
    after_results_simp
    rfl
  rw [e, truncf_apply, transpose_ix2_apply]
  exact gather_rows_rowTable _ j k

theorem V_w8 (c : Dev nD) (k j : Fin 256) :
    (V m c main_v38 : S256x256.Idx → EReal) (ix2 k j)
      = (m ((c : Thread nD τ).loc main_arg8) : S256x256.Idx → EReal) (ix2 (lane j) k) := by
  have e : (V m c main_v38 : S256x256.Idx → EReal)
      = (truncf (F := Ideal) (φ := .f32) .bf16 (transpose S256x256 [1, 0]
          (Host.gather gather_S256x256_S256x1_S256x256_1_0_n_n_0_1_1256
            (m (c, Proc.devRef .tc main_arg8) : S256x256.Idx → EReal) rowTable)
          transposes_S256x256_S256x256_1_0) bitsLt_bf16_f32 : S256x256.Idx → EReal) := by
    show StableHlo.after hostOps0 (fun b => m (c, b)) (Proc.devRef .tc main_v38) = _
    unfold hostOps0
    after_results_simp
    rfl
  rw [e, truncf_apply, transpose_ix2_apply]
  exact gather_rows_rowTable _ j k

/-! ## The offsets: permuted, then given a leading unit axis -/

theorem V_b5 (c : Dev nD) (u : Fin 1) (j : Fin 256) :
    (V m c main_v20 : S1x256.Idx → EReal) (ix2 u j)
      = (m ((c : Thread nD τ).loc main_arg5) : S256.Idx → EReal) (ix1 (lane j)) := by
  have e : (V m c main_v20 : S1x256.Idx → EReal)
      = shapeCast S1x256
          (Host.gather gather_S256_S256x1_S256_n_0_n_n_0_1_1 (m (c, Proc.devRef .tc main_arg5) : S256.Idx → EReal) rowTable)
          shapeCasts_S256_S1x256 := by
    show StableHlo.after hostOps0 (fun b => m (c, b)) (Proc.devRef .tc main_v20) = _
    unfold hostOps0
    after_results_simp
    rfl
  rw [e, shapeCast_a_1a_apply]
  exact gather_entries_rowTable _ j

theorem V_b7 (c : Dev nD) (u : Fin 1) (j : Fin 256) :
    (V m c main_v26 : S1x256.Idx → EReal) (ix2 u j)
      = (m ((c : Thread nD τ).loc main_arg7) : S256.Idx → EReal) (ix1 (lane j)) := by
  have e : (V m c main_v26 : S1x256.Idx → EReal)
      = shapeCast S1x256
          (Host.gather gather_S256_S256x1_S256_n_0_n_n_0_1_1 (m (c, Proc.devRef .tc main_arg7) : S256.Idx → EReal) rowTable)
          shapeCasts_S256_S1x256 := by
    show StableHlo.after hostOps0 (fun b => m (c, b)) (Proc.devRef .tc main_v26) = _
    unfold hostOps0
    after_results_simp
    rfl
  rw [e, shapeCast_a_1a_apply]
  exact gather_entries_rowTable _ j

theorem V_b9 (c : Dev nD) (u : Fin 1) (j : Fin 256) :
    (V m c main_v32 : S1x256.Idx → EReal) (ix2 u j)
      = (m ((c : Thread nD τ).loc main_arg9) : S256.Idx → EReal) (ix1 (lane j)) := by
  have e : (V m c main_v32 : S1x256.Idx → EReal)
      = shapeCast S1x256
          (Host.gather gather_S256_S256x1_S256_n_0_n_n_0_1_1 (m (c, Proc.devRef .tc main_arg9) : S256.Idx → EReal) rowTable)
          shapeCasts_S256_S1x256 := by
    show StableHlo.after hostOps0 (fun b => m (c, b)) (Proc.devRef .tc main_v32) = _
    unfold hostOps0
    after_results_simp
    rfl
  rw [e, shapeCast_a_1a_apply]
  exact gather_entries_rowTable _ j

/-! ## The bias tables: each 4 × 4 table transposed, then flattened -/

theorem V_bias (c : Dev nD) (r : Fin 262144) (g h : Fin 4) (p : Fin 16) (hp : p.val = g.val * 4 + h.val) :
    (V m c main_v40 : S262144x16.Idx → EReal) (ix2 r p)
      = (m ((c : Thread nD τ).loc main_arg3) : S262144x4x4.Idx → EReal) (ix3 r h g) := by
  have e : (V m c main_v40 : S262144x16.Idx → EReal)
      = shapeCast S262144x16
          (transpose S262144x4x4 [0, 2, 1] (m (c, Proc.devRef .tc main_arg3) : S262144x4x4.Idx → EReal)
            transposes_S262144x4x4_S262144x4x4_0_2_1)
          shapeCasts_S262144x4x4_S262144x16 := by
    show StableHlo.after hostOps0 (fun b => m (c, b)) (Proc.devRef .tc main_v40) = _
    unfold hostOps0
    after_results_simp
    rfl
  rw [e, shapeCast_apply _ shapeCasts_S262144x4x4_S262144x16 (ix2 r p) (ix3 r g h) (by
    rw [Shape.rowMajor_val_three, Shape.rowMajor_val_two]
    show (r.val * 4 + g.val) * 4 + h.val = r.val * 16 + p.val
    omega)]
  exact transpose_ix3_021_apply _ _ r g h

end Cert.EdgeAttn.Host

end
-- ==== Proof.Blocks.lean ====
/-
  From blocks to arrays. The grid has 256 points; point `t` stages rows t · 1024 … t · 1024 + 1023 of q, k, v and of
  the flattened bias tables, and the whole of each staged layer. Each input block is read off the array the region
  finds (`iblk0_apply` … `iblk9_apply`), so the block a point writes back is the block of the specification's result
  on its rows (`flushed10_eq`, `flushed11_eq`); the 256 blocks tile each output (`cover10`, `cover11`), so after the
  run the first output is `xOut` and the second output's flat array is the flattened scores (`final10`, `final11`).
-/
import proofs.«156817_j62414464745780_2_alg».proof.Proof.PointMath
import proofs.«156817_j62414464745780_2_alg».proof.Proof.HostSide
import proofs.«156817_j62414464745780_2_alg».proof.Proof.Gen.KernelIdeal.Frame
import Idealize.ShloMosaic.Lib.Pipeline.Value
import Idealize.ShloMosaic.Lib.Tactic

noncomputable section

namespace Cert.EdgeAttn.Kernel

open Cert.KernelIdeal Cert.KernelIdeal.Gen Idealize.ShloMosaic Idealize.ShloMosaic.TcCoe Idealize.SL.Sem Idealize.ShloMosaic.ValueIdx Cert.EdgeAttn Cert.EdgeAttn.Body

open Idealize.ShloMosaic.Pipeline (Dat)

variable (m : (ℓ : Loc nD τ sig) → Buf (Elt Ideal) ℓ) (ρ : Dev nD → PrngReg)

/-- The program's arguments on device `c`. -/
def args (c : Dev nD) : Inputs where
  q := m ((c : Thread nD τ).loc main_arg0)
  k := m ((c : Thread nD τ).loc main_arg1)
  v := m ((c : Thread nD τ).loc main_arg2)
  bias := m ((c : Thread nD τ).loc main_arg3)
  Wq := m ((c : Thread nD τ).loc main_arg4)
  bq := m ((c : Thread nD τ).loc main_arg5)
  Wk := m ((c : Thread nD τ).loc main_arg6)
  bk := m ((c : Thread nD τ).loc main_arg7)
  Wv := m ((c : Thread nD τ).loc main_arg8)
  bv := m ((c : Thread nD τ).loc main_arg9)

/-- A grid point as a number below 256. -/
def pt (t : Fin cfg0.N) : Fin 256 := ⟨t.val, lt_of_lt_of_eq t.isLt (show cfg0.N = 256 from N_0)⟩

/-- The printed index maps, decided over the grid: the row-blocked windows are at block row `t`, the staged layers
    at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Point `t`'s block of q is rows t · 1024 … of q. -/
theorem iblk0_apply (c : Dev nD) (t : Fin cfg0.N) (p : Fin 1024) (k : Fin 256) :
    (iblk m c 0 t : Vec Ideal S1024x256 .f32) (ix2 p k) = (args m c).q (ix2 (row (pt t) p) k) := by
  unfold iblk
  rw [View.read_apply]
  show V m c main_arg0 _ = _
  rw [V_main_arg0]
  show m ((c : Thread nD τ).loc main_arg0) _ = m ((c : Thread nD τ).loc main_arg0) _
  congr 1
  funext a
  apply Fin.ext
  obtain ⟨e0, e1⟩ := (idx_facts t).1
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

theorem iblk1_apply (c : Dev nD) (t : Fin cfg0.N) (p : Fin 1024) (k : Fin 256) :
    (iblk m c 1 t : Vec Ideal S1024x256 .f32) (ix2 p k) = (args m c).k (ix2 (row (pt t) p) k) := by
  unfold iblk
  rw [View.read_apply]
  show V m c main_arg1 _ = _
  rw [V_main_arg1]
  show m ((c : Thread nD τ).loc main_arg1) _ = m ((c : Thread nD τ).loc main_arg1) _
  congr 1
  funext a
  apply Fin.ext
  obtain ⟨e0, e1⟩ := (idx_facts t).2.1
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega

theorem iblk2_apply (c : Dev nD) (t : Fin cfg0.N) (p : Fin 1024) (k : Fin 256) :
    (iblk m c 2 t : Vec Ideal S1024x256 .f32) (ix2 p k) = (args m c).v (ix2 (row (pt t) p) k) := by
  unfold iblk
  rw [View.read_apply]
  show V m c main_arg2 _ = _
  rw [V_main_arg2]
  show m ((c : Thread nD τ).loc main_arg2) _ = m ((c : Thread nD τ).loc main_arg2) _
  congr 1
  funext a
  apply Fin.ext
  obtain ⟨e0, e1⟩ := (idx_facts t).2.2.1
  match a with
  | ⟨0, _⟩ => show win0_2.index t (0 : Fin 2) * 1024 + 1 * p.val = t.val * 1024 + p.val; rw [e0]; omega
  | ⟨1, _⟩ => show win0_2.index t (1 : Fin 2) * 256 + 1 * k.val = k.val; rw [e1]; omega

/-- Point `t`'s block of the flattened bias tables: column g · 4 + h of row p is the table entry (h, g) of the row. -/
theorem iblk3_apply (c : Dev nD) (t : Fin cfg0.N) (p : Fin 1024) (g h : Fin 4) (cc : Fin 16) (hc : cc.val = g.val * 4 + h.val) :
    (iblk m c 3 t : Vec Ideal S1024x16 .f32) (ix2 p cc) = (args m c).bias (ix3 (row (pt t) p) h g) := by
  unfold iblk
  rw [View.read_apply]
  have e : ((cfg0.win 3).blk t).view.emb (ix2 p cc) = (ix2 (row (pt t) p) cc : S262144x16.Idx) := by
    funext a
    apply Fin.ext
    obtain ⟨e0, e1⟩ := (idx_facts t).2.2.2.1
    match a with
    | ⟨0, _⟩ => show win0_3.index t (0 : Fin 2) * 1024 + 1 * p.val = t.val * 1024 + p.val; rw [e0]; omega
    | ⟨1, _⟩ => show win0_3.index t (1 : Fin 2) * 16 + 1 * cc.val = cc.val; rw [e1]; omega
  show (V m c main_v40 : S262144x16.Idx → EReal) (((cfg0.win 3).blk t).view.emb (ix2 p cc)) = _
  rw [e]
  exact Host.V_bias m c (row (pt t) p) g h cc hc

/-- The staged layers are the same block at every point: the weights transposed with their outputs in head-major
    order, the offsets likewise. -/
theorem iblk4_apply (c : Dev nD) (t : Fin cfg0.N) (k j : Fin 256) :
    (iblk m c 4 t : Vec Ideal S256x256 .bf16) (ix2 k j) = (args m c).Wq (ix2 (lane j) k) := by
  unfold iblk
  rw [View.read_apply]
  have e : ((cfg0.win 4).blk t).view.emb (ix2 k j) = (ix2 k j : S256x256.Idx) := by
    funext a
    apply Fin.ext
    obtain ⟨e0, e1⟩ := (idx_facts t).2.2.2.2.1
    match a with
    | ⟨0, _⟩ => show win0_4.index t (0 : Fin 2) * 256 + 1 * k.val = k.val; rw [e0]; omega
    | ⟨1, _⟩ => show win0_4.index t (1 : Fin 2) * 256 + 1 * j.val = j.val; rw [e1]; omega
  show (V m c main_v34 : S256x256.Idx → EReal) (((cfg0.win 4).blk t).view.emb (ix2 k j)) = _
  rw [e]
  exact Host.V_w4 m c k j

theorem iblk5_apply (c : Dev nD) (t : Fin cfg0.N) (j : Fin 256) :
    (iblk m c 5 t : Vec Ideal S1x256 .f32) (ix2 (0 : Fin 1) j) = (args m c).bq (ix1 (lane j)) := by
  unfold iblk
  rw [View.read_apply]
  have e : ((cfg0.win 5).blk t).view.emb (ix2 (0 : Fin 1) j) = (ix2 (0 : Fin 1) j : S1x256.Idx) := by
    funext a
    apply Fin.ext
    obtain ⟨e0, e1⟩ := (idx_facts t).2.2.2.2.2.1
    match a with
    | ⟨0, _⟩ => show win0_5.index t (0 : Fin 2) * 1 + 1 * 0 = 0; rw [e0]
    | ⟨1, _⟩ => show win0_5.index t (1 : Fin 2) * 256 + 1 * j.val = j.val; rw [e1]; omega
  show (V m c main_v20 : S1x256.Idx → EReal) (((cfg0.win 5).blk t).view.emb (ix2 (0 : Fin 1) j)) = _
  rw [e]
  exact Host.V_b5 m c 0 j

theorem iblk6_apply (c : Dev nD) (t : Fin cfg0.N) (k j : Fin 256) :
    (iblk m c 6 t : Vec Ideal S256x256 .bf16) (ix2 k j) = (args m c).Wk (ix2 (lane j) k) := by
  unfold iblk
  rw [View.read_apply]
  have e : ((cfg0.win 6).blk t).view.emb (ix2 k j) = (ix2 k j : S256x256.Idx) := by
    funext a
    apply Fin.ext
    obtain ⟨e0, e1⟩ := (idx_facts t).2.2.2.2.2.2.1
    match a with
    | ⟨0, _⟩ => show win0_6.index t (0 : Fin 2) * 256 + 1 * k.val = k.val; rw [e0]; omega
    | ⟨1, _⟩ => show win0_6.index t (1 : Fin 2) * 256 + 1 * j.val = j.val; rw [e1]; omega
  show (V m c main_v36 : S256x256.Idx → EReal) (((cfg0.win 6).blk t).view.emb (ix2 k j)) = _
  rw [e]
  exact Host.V_w6 m c k j

theorem iblk7_apply (c : Dev nD) (t : Fin cfg0.N) (j : Fin 256) :
    (iblk m c 7 t : Vec Ideal S1x256 .f32) (ix2 (0 : Fin 1) j) = (args m c).bk (ix1 (lane j)) := by
  unfold iblk
  rw [View.read_apply]
  have e : ((cfg0.win 7).blk t).view.emb (ix2 (0 : Fin 1) j) = (ix2 (0 : Fin 1) j : S1x256.Idx) := by
    funext a
    apply Fin.ext
    obtain ⟨e0, e1⟩ := (idx_facts t).2.2.2.2.2.2.2.1
    match a with
    | ⟨0, _⟩ => show win0_7.index t (0 : Fin 2) * 1 + 1 * 0 = 0; rw [e0]
    | ⟨1, _⟩ => show win0_7.index t (1 : Fin 2) * 256 + 1 * j.val = j.val; rw [e1]; omega
  show (V m c main_v26 : S1x256.Idx → EReal) (((cfg0.win 7).blk t).view.emb (ix2 (0 : Fin 1) j)) = _
  rw [e]
  exact Host.V_b7 m c 0 j

theorem iblk8_apply (c : Dev nD) (t : Fin cfg0.N) (k j : Fin 256) :
    (iblk m c 8 t : Vec Ideal S256x256 .bf16) (ix2 k j) = (args m c).Wv (ix2 (lane j) k) := by
  unfold iblk
  rw [View.read_apply]
  have e : ((cfg0.win 8).blk t).view.emb (ix2 k j) = (ix2 k j : S256x256.Idx) := by
    funext a
    apply Fin.ext
    obtain ⟨e0, e1⟩ := (idx_facts t).2.2.2.2.2.2.2.2.1
    match a with
    | ⟨0, _⟩ => show win0_8.index t (0 : Fin 2) * 256 + 1 * k.val = k.val; rw [e0]; omega
    | ⟨1, _⟩ => show win0_8.index t (1 : Fin 2) * 256 + 1 * j.val = j.val; rw [e1]; omega
  show (V m c main_v38 : S256x256.Idx → EReal) (((cfg0.win 8).blk t).view.emb (ix2 k j)) = _
  rw [e]
  exact Host.V_w8 m c k j

theorem iblk9_apply (c : Dev nD) (t : Fin cfg0.N) (j : Fin 256) :
    (iblk m c 9 t : Vec Ideal S1x256 .f32) (ix2 (0 : Fin 1) j) = (args m c).bv (ix1 (lane j)) := by
  unfold iblk
  rw [View.read_apply]
  have e : ((cfg0.win 9).blk t).view.emb (ix2 (0 : Fin 1) j) = (ix2 (0 : Fin 1) j : S1x256.Idx) := by
    funext a
    apply Fin.ext
    obtain ⟨e0, e1⟩ := (idx_facts t).2.2.2.2.2.2.2.2.2.1
    match a with
    | ⟨0, _⟩ => show win0_9.index t (0 : Fin 2) * 1 + 1 * 0 = 0; rw [e0]
    | ⟨1, _⟩ => show win0_9.index t (1 : Fin 2) * 256 + 1 * j.val = j.val; rw [e1]; omega
  show (V m c main_v32 : S1x256.Idx → EReal) (((cfg0.win 9).blk t).view.emb (ix2 (0 : Fin 1) j)) = _
  rw [e]
  exact Host.V_b9 m c 0 j

/-- The three projections of point `t`'s blocks are the specification's layers on the block's rows. -/
theorem projQ (c : Dev nD) (t : Fin cfg0.N) (p : Fin 1024) (j : Fin 256) :
    k0_pay4 (iblk m c 0 t) (iblk m c 4 t) (iblk m c 5 t) (ix2 p j) = proj (args m c).q (args m c).Wq (args m c).bq (row (pt t) p) (lane j) :=
  layer_point (pt t) (args m c).q (args m c).Wq (args m c).bq (iblk m c 0 t) (iblk m c 4 t) (iblk m c 5 t)
    (iblk0_apply m c t) (iblk4_apply m c t) (iblk5_apply m c t) p j
theorem projK (c : Dev nD) (t : Fin cfg0.N) (p : Fin 1024) (j : Fin 256) :
    k0_pay5 (iblk m c 1 t) (iblk m c 6 t) (iblk m c 7 t) (ix2 p j) = proj (args m c).k (args m c).Wk (args m c).bk (row (pt t) p) (lane j) :=
  layer_point (pt t) (args m c).k (args m c).Wk (args m c).bk (iblk m c 1 t) (iblk m c 6 t) (iblk m c 7 t)
    (iblk1_apply m c t) (iblk6_apply m c t) (iblk7_apply m c t) p j
theorem projV (c : Dev nD) (t : Fin cfg0.N) (p : Fin 1024) (j : Fin 256) :
    k0_pay6 (iblk m c 2 t) (iblk m c 8 t) (iblk m c 9 t) (ix2 p j) = proj (args m c).v (args m c).Wv (args m c).bv (row (pt t) p) (lane j) :=
  layer_point (pt t) (args m c).v (args m c).Wv (args m c).bv (iblk m c 2 t) (iblk m c 8 t) (iblk m c 9 t)
    (iblk2_apply m c t) (iblk8_apply m c t) (iblk9_apply m c t) p j
/-- The bias columns of point `t`'s block. -/
theorem biasB (c : Dev nD) (t : Fin cfg0.N) (p : Fin 1024) (g h : Fin 4) (cc : Fin 16) (hc : cc.val = g.val * 4 + h.val) :
    k0_pay7 (iblk m c 3 t) (ix2 p cc) = (args m c).bias (ix3 (row (pt t) p) h g) :=
  (congrFun (shapeCast_self (iblk m c 3 t : Vec Ideal S1024x16 .f32) _) (ix2 p cc)).trans (iblk3_apply m c t p g h cc hc)

/-- WHAT POINT `t` WRITES BACK to the first output is block `t` of `xOut` of the arguments. -/
theorem flushed10_eq (c : Dev nD) (t : Fin cfg0.N) :
    (dats m 0 c).flushed 10 t = ((cfg0.win 10).blk t).view.read (Elt Ideal) (xOut (args m c)) := by
  show (cfg0.win 10).cut (grid0.coords t) ((dats m 0 c).after 10 t) = _
  rw [after0_10, out10_eq]
  funext y
  obtain ⟨p, j, rfl⟩ : ∃ (p : Fin 1024) (j : Fin 256), y = ix2 p j := ⟨y 0, y 1, eq_ix2 y⟩
  show xBlock (k0_pay4 (iblk m c 0 t) (iblk m c 4 t) (iblk m c 5 t)) (k0_pay5 (iblk m c 1 t) (iblk m c 6 t) (iblk m c 7 t))
      (k0_pay6 (iblk m c 2 t) (iblk m c 8 t) (iblk m c 9 t)) (k0_pay7 (iblk m c 3 t)) (ix2 p j)
    = xOut (args m c) (((cfg0.win 10).blk t).view.emb (ix2 p j))
  refine (x_point (pt t) (args m c) (k0_pay4 (iblk m c 0 t) (iblk m c 4 t) (iblk m c 5 t)) (k0_pay5 (iblk m c 1 t) (iblk m c 6 t) (iblk m c 7 t))
      (k0_pay6 (iblk m c 2 t) (iblk m c 8 t) (iblk m c 9 t)) (k0_pay7 (iblk m c 3 t)) (projQ m c t) (projK m c t) (projV m c t) (biasB m c t) p j).trans ?_
  congr 1
  funext a
  apply Fin.ext
  obtain ⟨e0, e1⟩ := (idx_facts t).2.2.2.2.2.2.2.2.2.2.1
  match a with
  | ⟨0, _⟩ => show t.val * 1024 + p.val = win0_10.index t (0 : Fin 2) * 1024 + 1 * p.val; rw [e0]; omega
  | ⟨1, _⟩ => show j.val = win0_10.index t (1 : Fin 2) * 256 + 1 * j.val; rw [e1]; omega

/-- An index of the first output is in point `t`'s block iff each coordinate is in the block's range on its axis. -/
theorem mem_blk10 (t : Fin cfg0.N) (i : S262144x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v41_0).slice (win0_10.rect t)).set ↔ _
  rw [View.set_slice_whole, Rect.mem_set_unit]
  exact Iff.rfl

/-- Every row of the first output is in the block of the point its number over 1024 names. -/
theorem cover10 (i : S262144x256.Idx) : ∃ t : Fin cfg0.N, (cfg0.win 10).flush t = true ∧ i ∈ ((cfg0.win 10).blk t).view.set := by
  have h0 : (i 0).val < 262144 := (i 0).isLt
  have h1 : (i 1).val < 256 := (i 1).isLt
  refine ⟨⟨(i 0).val / 1024, by rw [show cfg0.N = 256 from N_0]; omega⟩, flush0_10 _, ?_⟩
  rw [mem_blk10]
  obtain ⟨e0, e1⟩ := (idx_facts ⟨(i 0).val / 1024, by rw [show cfg0.N = 256 from N_0]; omega⟩).2.2.2.2.2.2.2.2.2.2.1
  intro a
  match a with
  | ⟨0, _⟩ =>
    show win0_10.index _ (0 : Fin 2) * 1024 ≤ (i 0).val ∧ (i 0).val < win0_10.index _ (0 : Fin 2) * 1024 + 1024
    rw [e0]; show (i 0).val / 1024 * 1024 ≤ (i 0).val ∧ (i 0).val < (i 0).val / 1024 * 1024 + 1024; omega
  | ⟨1, _⟩ =>
    show win0_10.index _ (1 : Fin 2) * 256 ≤ (i 1).val ∧ (i 1).val < win0_10.index _ (1 : Fin 2) * 256 + 256
    rw [e1]; omega

/-- THE FIRST OUTPUT after the run is `xOut` of the arguments. -/
theorem final10 (c : Dev nD) : (dats m 0 c).arrAt 10 cfg0.N = xOut (args m c) :=
  (dats m 0 c).arrAt_eq_of_cover 10 (xOut (args m c)) (fun t _ => flushed10_eq m c t) cover10

/-- WHAT POINT `t` WRITES BACK to the second output is block `t` of the flattened scores. -/
theorem flushed11_eq (c : Dev nD) (t : Fin cfg0.N) :
    (dats m 0 c).flushed 11 t = ((cfg0.win 11).blk t).view.read (Elt Ideal) (probFlat (args m c)) := by
  show (cfg0.win 11).cut (grid0.coords t) ((dats m 0 c).after 11 t) = _
  rw [after0_11, out11_eq]
  funext y
  obtain ⟨p, cc, rfl⟩ : ∃ (p : Fin 1024) (cc : Fin 16), y = ix2 p cc := ⟨y 0, y 1, eq_ix2 y⟩
  show pBlock (k0_pay4 (iblk m c 0 t) (iblk m c 4 t) (iblk m c 5 t)) (k0_pay5 (iblk m c 1 t) (iblk m c 6 t) (iblk m c 7 t))
      (k0_pay7 (iblk m c 3 t)) (ix2 p cc)
    = probFlat (args m c) (((cfg0.win 11).blk t).view.emb (ix2 p cc))
  refine (p_point (pt t) (args m c) (k0_pay4 (iblk m c 0 t) (iblk m c 4 t) (iblk m c 5 t)) (k0_pay5 (iblk m c 1 t) (iblk m c 6 t) (iblk m c 7 t))
      (k0_pay7 (iblk m c 3 t)) (projQ m c t) (projK m c t) (biasB m c t) p cc).trans ?_
  congr 1
  funext a
  apply Fin.ext
  obtain ⟨e0, e1⟩ := (idx_facts t).2.2.2.2.2.2.2.2.2.2.2
  match a with
  | ⟨0, _⟩ => show t.val * 1024 + p.val = win0_11.index t (0 : Fin 2) * 1024 + 1 * p.val; rw [e0]; omega
  | ⟨1, _⟩ => show cc.val = win0_11.index t (1 : Fin 2) * 16 + 1 * cc.val; rw [e1]; omega

theorem mem_blk11 (t : Fin cfg0.N) (i : S262144x16.Idx) :
    i ∈ ((cfg0.win 11).blk t).view.set ↔ ∀ a : Fin 2, win0_11.index t a * S1024x16.size a ≤ (i a).val ∧ (i a).val < win0_11.index t a * S1024x16.size a + S1024x16.size a := by
  show i ∈ ((View.whole main_v41_1).slice (win0_11.rect t)).set ↔ _
  rw [View.set_slice_whole, Rect.mem_set_unit]
  exact Iff.rfl

theorem cover11 (i : S262144x16.Idx) : ∃ t : Fin cfg0.N, (cfg0.win 11).flush t = true ∧ i ∈ ((cfg0.win 11).blk t).view.set := by
  have h0 : (i 0).val < 262144 := (i 0).isLt
  have h1 : (i 1).val < 16 := (i 1).isLt
  refine ⟨⟨(i 0).val / 1024, by rw [show cfg0.N = 256 from N_0]; omega⟩, flush0_11 _, ?_⟩
  rw [mem_blk11]
  obtain ⟨e0, e1⟩ := (idx_facts ⟨(i 0).val / 1024, by rw [show cfg0.N = 256 from N_0]; omega⟩).2.2.2.2.2.2.2.2.2.2.2
  intro a
  match a with
  | ⟨0, _⟩ =>
    show win0_11.index _ (0 : Fin 2) * 1024 ≤ (i 0).val ∧ (i 0).val < win0_11.index _ (0 : Fin 2) * 1024 + 1024
    rw [e0]; show (i 0).val / 1024 * 1024 ≤ (i 0).val ∧ (i 0).val < (i 0).val / 1024 * 1024 + 1024; omega
  | ⟨1, _⟩ =>
    show win0_11.index _ (1 : Fin 2) * 16 ≤ (i 1).val ∧ (i 1).val < win0_11.index _ (1 : Fin 2) * 16 + 16
    rw [e1]; omega

/-- THE SECOND OUTPUT's flat array after the run: the scores, the two head axes flattened k-head first. -/
theorem final11 (c : Dev nD) : (dats m 0 c).arrAt 11 cfg0.N = probFlat (args m c) :=
  (dats m 0 c).arrAt_eq_of_cover 11 (probFlat (args m c)) (fun t _ => flushed11_eq m c t) cover11

end Cert.EdgeAttn.Kernel

end
-- ==== Proof.KernelRun.lean ====
/-
  The run of the idealized kernel program, read. After the region the host reshapes the second output's flat array
  [262144, 16] to [262144, 4, 4] and swaps the two head axes (`tail_prob`); the first output is returned as the
  region leaves it. `run`: every weakly fair execution terminates with the two results at the specification's
  `xOut` and `probOut` of the arguments, and the arguments unchanged.
-/
import proofs.«156817_j62414464745780_2_alg».proof.Proof.Blocks
import Idealize.ShloMosaic.Lib.ValueLayout
import Idealize.ShloMosaic.Lib.StableHlo.Run

noncomputable section

namespace Cert.EdgeAttn.Kernel

open Cert.KernelIdeal Cert.KernelIdeal.Gen Idealize.ShloMosaic Idealize.ShloMosaic.TcCoe Idealize.SL.Sem Idealize.ShloMosaic.ValueIdx Cert.EdgeAttn Cert.EdgeAttn.Body

open Idealize.ShloMosaic.Pipeline (Dat)

variable (m : (ℓ : Loc nD τ sig) → Buf (Elt Ideal) ℓ) (ρ : Dev nD → PrngReg)

/-- The host operations after the region reshape the second output's flat array [262144, 16] to [262144, 4, 4] and
    swap the two head axes: entry (r, h, g) reads column g · 4 + h of row r, the score of q-head h against k-head g. -/
theorem tail_prob (c : Dev nD) :
    Pipeline.afterTail₀ cfgs (dats m) 0 (V0 m) [hostOps1] c main_v43 = probOut (args m c) := by
  unfold Pipeline.afterTail₀
  show StableHlo.after hostOps1 _ (Proc.devRef .tc main_v43) = _
  unfold hostOps1
  after_results_simp
  have hw : Pipeline.withArrays (cfgs 0).spec c (V0 m c) (fun w => (dats m 0 c).arrAt w (cfgs 0).N)
      (Proc.devRef .tc main_v41_1) = probFlat (args m c) :=
    (Pipeline.withArrays_arr spec0 launch0.win.arr_inj c _ _ 11).trans (final11 m c)
  rw [hw]
  funext i
  obtain ⟨r, h, g, rfl⟩ : ∃ (r : Fin 262144) (h g : Fin 4), i = ix3 r h g := ⟨i 0, i 1, i 2, eq_ix3 i⟩
  refine (transpose_ix3_021_apply _ transposes_S262144x4x4_S262144x4x4_0_2_1 r h g).trans ?_
  refine (shapeCast_apply (probFlat (args m c)) shapeCasts_S262144x16_S262144x4x4 (ix3 r g h)
    (ix2 r ⟨g.val * 4 + h.val, by omega⟩) (by
      rw [Shape.rowMajor_val_two, Shape.rowMajor_val_three]
      show r.val * 16 + (g.val * 4 + h.val) = (r.val * 4 + g.val) * 4 + h.val
      omega)).trans ?_
  show logit (args m c) r ⟨(g.val * 4 + h.val) % 4, _⟩ ⟨(g.val * 4 + h.val) / 4, _⟩ = logit (args m c) r h g
  congr 1
  · exact Fin.ext (by show (g.val * 4 + h.val) % 4 = h.val; omega)
  · exact Fin.ext (by show (g.val * 4 + h.val) / 4 = g.val; omega)

/-- THE RUN of the idealized kernel program: every weakly fair execution terminates with the first result at `xOut`
    and the second at `probOut` of the arguments, the arguments unchanged. -/
theorem run : θ_run defs (onTc (τ := τ) (main (F := Ideal))) ⟨m, fun _ => 0, ρ⟩ fun r => ∀ c : Dev nD,
      r.2.mem ((c : Thread nD τ).loc main_v41_0) = xOut (args m c)
      ∧ r.2.mem ((c : Thread nD τ).loc main_v43) = probOut (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1 10).trans (final10 m c),
      ((h c).2 main_v43 (Pipeline.mem_restRefs_of main_v43 (by decide) (by decide))).trans (tail_prob m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.EdgeAttn.Kernel

end
-- ==== Proof.lean ====
/-
  The five claims of `Cert.Claim`.

  Both programs compute, for each of 262144 rows, three linear layers of the row's q, k, v vectors split into 4 heads of
  64 lanes, the 4 × 4 scores of the q-heads against the k-heads plus a bias table (the second result), the softmax of
  the scores over the q-heads, and the v-heads mixed by those weights (the first result): `Cert.EdgeAttn.probOut` and
  `xOut` (Proof/Spec.lean). The kernel program permutes the layers' outputs into head-major order on the host, works
  on 256 blocks of 1024 rows, takes one k-head at a time and accumulates the four contributions from zero; the
  reference works on whole arrays with the heads interleaved. On the extended reals the two orders of every sum agree
  (addition there is commutative and associative), a conversion to a shorter float format is the identity, and the
  matrix unit's product into a zero accumulator is the host's contraction: so the results are equal entry by entry,
  and no use is made of the inputs' finiteness.

  The kernel's side is `Cert.EdgeAttn.Kernel.run` (Proof/Blocks.lean and Proof/KernelRun.lean, over Proof/BodyOps.lean,
  Proof/BodyBlock.lean, Proof/PointMath.lean, Proof/HostSide.lean), the reference's `Cert.EdgeAttn.Ref.ref_x` and
  `ref_prob` (Proof/RefSide.lean) over the generated run of the reference. The frames are the generated ones; the
  idealization rewrote no operation, so `preserves` is trivial.
-/
import proofs.«156817_j62414464745780_2_alg».proof.Defs
import proofs.«156817_j62414464745780_2_alg».proof.Proof.Gen.Kernel
import proofs.«156817_j62414464745780_2_alg».proof.Proof.Gen.Kernel.Skeleton
import proofs.«156817_j62414464745780_2_alg».proof.Proof.Gen.Kernel.Launch
import proofs.«156817_j62414464745780_2_alg».proof.Proof.Gen.Kernel.Points
import proofs.«156817_j62414464745780_2_alg».proof.Proof.Gen.Kernel.Frame
import proofs.«156817_j62414464745780_2_alg».proof.Proof.Gen.KernelIdeal
import proofs.«156817_j62414464745780_2_alg».proof.Proof.Gen.KernelIdeal.Skeleton
import proofs.«156817_j62414464745780_2_alg».proof.Proof.Gen.KernelIdeal.Launch
import proofs.«156817_j62414464745780_2_alg».proof.Proof.Gen.KernelIdeal.Points
import proofs.«156817_j62414464745780_2_alg».proof.Proof.Gen.KernelIdeal.Frame
import proofs.«156817_j62414464745780_2_alg».proof.Proof.Gen.ReferenceIdeal
import proofs.«156817_j62414464745780_2_alg».proof.Proof.Gen.Pre_finite_inputs
import proofs.«156817_j62414464745780_2_alg».proof.Proof.Gen.ReferenceIdeal.Run
import proofs.«156817_j62414464745780_2_alg».proof.Proof.Gen.ReferenceIdeal.Read
import proofs.«156817_j62414464745780_2_alg».proof.Proof.RefSide
import proofs.«156817_j62414464745780_2_alg».proof.Proof.KernelRun
import Idealize.ShloMosaic.Adequacy
import Idealize.ShloMosaic.Init

noncomputable section

namespace Cert.Proof

open Idealize.ShloMosaic Idealize.ShloMosaic.TcCoe Idealize.SL.Sem Cert.EdgeAttn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both runs end with the first result at `xOut` and the second at `probOut`
    of the arguments. -/
theorem algebraic : Cert.algebraic_KernelIdeal_ReferenceIdeal := by
  intro m ρ m' ρ' _ hagree
  refine ⟨fun c => xOut (Kernel.args m c), fun c => probOut (Kernel.args m c), Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v35_eq, a0, a1, a2, a3, a4, a5, a6, a7, a8, a9]
    exact Ref.ref_x (Kernel.args m c)
  · rw [Cert.ReferenceIdeal.Read.val_main_v22_eq, a0, a1, a3, a4, a5, a6, a7]
    exact Ref.ref_prob (Kernel.args m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
